-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x21 : Shape := ⟨2, ![1048576, 21]⟩
abbrev S2x1048576x5 : Shape := ⟨3, ![2, 1048576, 5]⟩
abbrev S20x21 : Shape := ⟨2, ![20, 21]⟩
abbrev S20x5 : Shape := ⟨2, ![20, 5]⟩
abbrev S20 : Shape := ⟨1, ![20]⟩
abbrev S1x5 : Shape := ⟨2, ![1, 5]⟩
abbrev S1 : Shape := ⟨1, ![1]⟩
abbrev S_ : Shape := ⟨0, ![]⟩

class Facts : Prop where
  bcast_S_S1048576x21 : S_.BroadcastsInDim S1048576x21 (![] : Fin 0 → Fin S1048576x21.rank)
  reducesTo_S1048576x21_S_d0_1 : S1048576x21.ReducesTo [0, 1] S_
  h_S_ : 0 < S_.numel
  bcast_S_S2x1048576x5 : S_.BroadcastsInDim S2x1048576x5 (![] : Fin 0 → Fin S2x1048576x5.rank)
  reducesTo_S2x1048576x5_S_d0_1_2 : S2x1048576x5.ReducesTo [0, 1, 2] S_
  bcast_S_S20x21 : S_.BroadcastsInDim S20x21 (![] : Fin 0 → Fin S20x21.rank)
  reducesTo_S20x21_S_d0_1 : S20x21.ReducesTo [0, 1] S_
  bcast_S_S20x5 : S_.BroadcastsInDim S20x5 (![] : Fin 0 → Fin S20x5.rank)
  reducesTo_S20x5_S_d0_1 : S20x5.ReducesTo [0, 1] S_
  bcast_S_S20 : S_.BroadcastsInDim S20 (![] : Fin 0 → Fin S20.rank)
  reducesTo_S20_S_d0 : S20.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x5 .f32) (main_arg12 : FVec F S1 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S1x5 .f32 := Host.absf main_arg11
  let main_cst_20 : FVec F S_ .f32 := constant S_ .f32 0x7F800000#32
  let main_v55 : FVec F S1x5 .f32 := broadcastInDim S1x5 ![] bcast_S_S1x5 main_cst_20
  let main_v56 : IVec S1x5 1 := cmpf .olt main_v54 main_v55
  let main_c_21 : IVec S_ 1 := constantI S_ 1 1#1
  let main_v57 : IVec S_ 1 := (fun x v => Host.reduce IntOp.andi x v reducesTo_S1x5_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S20x5 .f32) (main_arg8 : FVec F S20x5 .f32) (main_arg9 : FVec F S20 .f32) (main_arg10 : FVec F S20 .f32) (main_arg11 : FVec F S1x5 .f32) (main_arg12 : FVec F S1 .f32) (main_v33 : IVec S_ 1) : IVec S_ 1 :=
  let main_v34 : FVec F S20x5 .f32 := Host.absf main_arg7
  let main_cst_12 : FVec F S_ .f32 := constant S_ .f32 0x7F800000#32
  let main_v35 : FVec F S20x5 .f32 := broadcastInDim S20x5 ![] bcast_S_S20x5 main_cst_12
  let main_v36 : IVec S20x5 1 := cmpf .olt main_v34 main_v35
  let main_c_13 : IVec S_ 1 := constantI S_ 1 1#1
  let main_v37 : IVec S_ 1 := (fun x v => Host.reduce IntOp.andi x v reducesTo_S20x5_S_d0_1 h_S_) main_v36 main_c_13
  let main_v38 : IVec S_ 1 := andi main_v33 main_v37
  let main_v39 : FVec F S20x5 .f32 := Host.absf main_arg8
  let main_cst_14 : FVec F S_ .f32 := constant S_ .f32 0x7F800000#32
  let main_v40 : FVec F S20x5 .f32 := broadcastInDim S20x5 ![] bcast_S_S20x5 main_cst_14
  let main_v41 : IVec S20x5 1 := cmpf .olt main_v39 main_v40
  let main_c_15 : IVec S_ 1 := constantI S_ 1 1#1
  let main_v42 : IVec S_ 1 := (fun x v => Host.reduce IntOp.andi x v reducesTo_S20x5_S_d0_1 h_S_) main_v41 main_c_15
  let main_v43 : IVec S_ 1 := andi main_v38 main_v42
  let main_v44 : FVec F S20 .f32 := Host.absf main_arg9
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_v48 main_v49 main_v50

def fn_part1 {F : FTy → Type} [FloatOps F] (main_arg4 : FVec F S20x5 .f32) (main_arg5 : FVec F S20 .f32) (main_arg6 : FVec F S20 .f32) (main_arg7 : FVec F S20x5 .f32) (main_arg8 : FVec F S20x5 .f32) (main_arg9 : FVec F S20 .f32) (main_arg10 : FVec F S20 .f32) (main_arg11 : FVec F S1x5 .f32) (main_arg12 : FVec F S1 .f32) (main_v13 : IVec S_ 1) (main_v16 : IVec S20x21 1) : IVec S_ 1 :=
  let main_c_5 : IVec S_ 1 := constantI S_ 1 1#1
  let main_v17 : IVec S_ 1 := (fun x v => Host.reduce IntOp.andi x v reducesTo_S20x21_S_d0_1 h_S_) main_v16 main_c_5
  let main_v18 : IVec S_ 1 := andi main_v13 main_v17
  let main_v19 : FVec F S20x5 .f32 := Host.absf main_arg4
  let main_cst_6 : FVec F S_ .f32 := constant S_ .f32 0x7F800000#32
  let main_v20 : FVec F S20x5 .f32 := broadcastInDim S20x5 ![] bcast_S_S20x5 main_cst_6
  let main_v21 : IVec S20x5 1 := cmpf .olt main_v19 main_v20
  let main_c_7 : IVec S_ 1 := constantI S_ 1 1#1
  let main_v22 : IVec S_ 1 := (fun x v => Host.reduce IntOp.andi x v reducesTo_S20x5_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x21 .f32) (main_arg1 : FVec F S2x1048576x5 .f32) (main_arg2 : FVec F S2x1048576x5 .f32) (main_arg3 : FVec F S20x21 .f32) (main_arg4 : FVec F S20x5 .f32) (main_arg5 : FVec F S20 .f32) (main_arg6 : FVec F S20 .f32) (main_arg7 : FVec F S20x5 .f32) (main_arg8 : FVec F S20x5 .f32) (main_arg9 : FVec F S20 .f32) (main_arg10 : FVec F S20 .f32) (main_arg11 : FVec F S1x5 .f32) (main_arg12 : FVec F S1 .f32) : IVec S_ 1 :=
  let main_v0 : FVec F S1048576x21 .f32 := Host.absf main_arg0
  let main_cst : FVec F S_ .f32 := constant S_ .f32 0x7F800000#32
  let main_v1 : FVec F S1048576x21 .f32 := broadcastInDim S1048576x21 ![] bcast_S_S1048576x21 main_cst
  let main_v2 : IVec S1048576x21 1 := cmpf .olt main_v0 main_v1
  let main_c : IVec S_ 1 := constantI S_ 1 1#1
  let main_v3 : IVec S_ 1 := (fun x v => Host.reduce IntOp.andi x v reducesTo_S1048576x21_S_d0_1 h_S_) main_v2 main_c
  let main_v4 : FVec F S2x1048576x5 .f32 := Host.absf main_arg1
  let main_cst_0 : FVec F S_ .f32 := constant S_ .f32 0x7F800000#32
  let main_v5 : FVec F S2x1048576x5 .f32 := broadcastInDim S2x1048576x5 ![] bcast_S_S2x1048576x5 main_cst_0
  let main_v6 : IVec S2x1048576x5 1 := cmpf .olt main_v4 main_v5
  let main_c_1 : IVec S_ 1 := constantI S_ 1 1#1
  let main_v7 : IVec S_ 1 := (fun x v => Host.reduce IntOp.andi x v reducesTo_S2x1048576x5_S_d0_1_2 h_S_) main_v6 main_c_1
  let main_v8 : IVec S_ 1 := andi main_v3 main_v7
  let main_v9 : FVec F S2x1048576x5 .f32 := Host.absf main_arg2
  let main_cst_2 : FVec F S_ .f32 := constant S_ .f32 0x7F800000#32
  let main_v10 : FVec F S2x1048576x5 .f32 := broadcastInDim S2x1048576x5 ![] bcast_S_S2x1048576x5 main_cst_2
  let main_v11 : IVec S2x1048576x5 1 := cmpf .olt main_v9 main_v10
  let main_c_3 : IVec S_ 1 := constantI S_ 1 1#1
  let main_v12 : IVec S_ 1 := (fun x v => Host.reduce IntOp.andi x v reducesTo_S2x1048576x5_S_d0_1_2 h_S_) main_v11 main_c_3
  let main_v13 : IVec S_ 1 := andi main_v8 main_v12
  let main_v14 : FVec F S20x21 .f32 := Host.absf main_arg3
  let main_cst_4 : FVec F S_ .f32 := constant S_ .f32 0x7F800000#32
  let main_v15 : FVec F S20x21 .f32 := broadcastInDim S20x21 ![] bcast_S_S20x21 main_cst_4
  let main_v16 : IVec S20x21 1 := cmpf .olt main_v14 main_v15
  fn_part1 (F := F) main_arg4 main_arg5 main_arg6 main_arg7 main_arg8 main_arg9 main_arg10 main_arg11 main_arg12 main_v13 main_v16
-- ==== Kernel.lean ====
abbrev S1048576x21 : Shape := ⟨2, ![1048576, 21]⟩
abbrev S2x1048576x5 : Shape := ⟨3, ![2, 1048576, 5]⟩
abbrev S20x21 : Shape := ⟨2, ![20, 21]⟩
abbrev S20x5 : Shape := ⟨2, ![20, 5]⟩
abbrev S20 : Shape := ⟨1, ![20]⟩
abbrev S1x5 : Shape := ⟨2, ![1, 5]⟩
abbrev S1 : Shape := ⟨1, ![1]⟩
abbrev S1048576x1 : Shape := ⟨2, ![1048576, 1]⟩
abbrev S4096x21 : Shape := ⟨2, ![4096, 21]⟩
abbrev S2x4096x5 : Shape := ⟨3, ![2, 4096, 5]⟩
abbrev S4096x1 : Shape := ⟨2, ![4096, 1]⟩
abbrev S1x4096x5 : Shape := ⟨3, ![1, 4096, 5]⟩
abbrev S4096x5 : Shape := ⟨2, ![4096, 5]⟩
abbrev S21x20 : Shape := ⟨2, ![21, 20]⟩
abbrev S4096x20 : Shape := ⟨2, ![4096, 20]⟩
abbrev S5x20 : Shape := ⟨2, ![5, 20]⟩
abbrev S1x20 : Shape := ⟨2, ![1, 20]⟩
abbrev S5x1 : Shape := ⟨2, ![5, 1]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S1048576x21, .f32⟩
  | .hbm, ⟨1, _⟩ => ⟨S2x1048576x5, .f32⟩
  | .hbm, ⟨2, _⟩ => ⟨S2x1048576x5, .f32⟩
  | .hbm, ⟨3, _⟩ => ⟨S20x21, .f32⟩
  | .hbm, ⟨4, _⟩ => ⟨S20x5, .f32⟩
  | .hbm, ⟨5, _⟩ => ⟨S20, .f32⟩
  | .hbm, ⟨6, _⟩ => ⟨S20, .f32⟩
  | .hbm, ⟨7, _⟩ => ⟨S20x5, .f32⟩
  | .hbm, ⟨8, _⟩ => ⟨S20x5, .f32⟩
  | .hbm, ⟨9, _⟩ => ⟨S20, .f32⟩
  | .hbm, ⟨10, _⟩ => ⟨S20, .f32⟩
  | .hbm, ⟨11, _⟩ => ⟨S1x5, .f32⟩
  | .hbm, ⟨12, _⟩ => ⟨S1, .f32⟩
  | .hbm, ⟨13, _⟩ => ⟨S20, .f32⟩
  | .hbm, ⟨14, _⟩ => ⟨S20, .f32⟩
  | .hbm, ⟨15, _⟩ => ⟨S1048576x1, .f32⟩
  | .local _ .vmem, ⟨0, _⟩ => ⟨S4096x21, .f32⟩
  | .local _ .vmem, ⟨1, _⟩ => ⟨S4096x21, .f32⟩
  | .local _ .vmem, ⟨2, _⟩ => ⟨S2x4096x5, .f32⟩
  | .local _ .vmem, ⟨3, _⟩ => ⟨S2x4096x5, .f32⟩
  | .local _ .vmem, ⟨4, _⟩ => ⟨S2x4096x5, .f32⟩
  | .local _ .vmem, ⟨5, _⟩ => ⟨S2x4096x5, .f32⟩
  | .local _ .vmem, ⟨6, _⟩ => ⟨S20x21, .f32⟩
  | .local _ .vmem, ⟨7, _⟩ => ⟨S20x5, .f32⟩
  | .local _ .vmem, ⟨8, _⟩ => ⟨S20, .f32⟩
  | .local _ .vmem, ⟨9, _⟩ => ⟨S20x5, .f32⟩
  | .local _ .vmem, ⟨10, _⟩ => ⟨S20x5, .f32⟩
  | .local _ .vmem, ⟨11, _⟩ => ⟨S20, .f32⟩
  | .local _ .vmem, ⟨12, _⟩ => ⟨S1x5, .f32⟩
  | .local _ .vmem, ⟨13, _⟩ => ⟨S1, .f32⟩
  | .local _ .vmem, ⟨14, _⟩ => ⟨S4096x1, .f32⟩
  | .local _ .vmem, ⟨15, _⟩ => ⟨S4096x1, .f32⟩
  | _, _ => ⟨S1048576x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S4096x21_S4096x21_0_0 : ∀ a, (![0, 0] : Fin 2 → Nat) a + S4096x21.size a ≤ S4096x21.size a
  h_S4096x21 : 0 < S4096x21.numel
  inb_S2x4096x5_S1x4096x5_0_0_0 : ∀ a, (![0, 0, 0] : Fin 3 → Nat) a + S1x4096x5.size a ≤ S2x4096x5.size a
  h_S1x4096x5 : 0 < S1x4096x5.numel
  shapeCasts_S1x4096x5_S4096x5 : S1x4096x5.ShapeCasts S4096x5
  inb_S2x4096x5_S1x4096x5_1_0_0 : ∀ a, (![1, 0, 0] : Fin 3 → Nat) a + S1x4096x5.size a ≤ S2x4096x5.size a
  bitsLt_bf16_f32 : FTy.bits .bf16 < FTy.bits .f32
  inb_S20x21_S20x21_0_0 : ∀ a, (![0, 0] : Fin 2 → Nat) a + S20x21.size a ≤ S20x21.size a
  h_S20x21 : 0 < S20x21.numel
  inb_S20x5_S20x5_0_0 : ∀ a, (![0, 0] : Fin 2 → Nat) a + S20x5.size a ≤ S20x5.size a
  h_S20x5 : 0 < S20x5.numel
  inb_S20_S20_0 : ∀ a, (![0] : Fin 1 → Nat) a + S20.size a ≤ S20.size a
  h_S20 : 0 < S20.numel
  shapeCasts_S20_S20 : S20.ShapeCasts S20
  transposes_S20x21_p1_0_S21x20 : S20x21.Transposes [1, 0] S21x20
  transposes_S20x5_p1_0_S5x20 : S20x5.Transposes [1, 0] S5x20
  shapeCasts_S20_S1x20 : S20.ShapeCasts S1x20
  broadcasts_S1x20_S4096x20 : S1x20.Broadcasts S4096x20
  slices_S4096x20_o0_0_S4096x5 : S4096x20.Slices ![0, 0] S4096x5
  slices_S4096x20_o0_5_S4096x5 : S4096x20.Slices ![0, 5] S4096x5
  slices_S4096x20_o0_10_S4096x5 : S4096x20.Slices ![0, 10] S4096x5
  slices_S4096x20_o0_15_S4096x5 : S4096x20.Slices ![0, 15] S4096x5
  inb_S1x5_S1x5_0_0 : ∀ a, (![0, 0] : Fin 2 → Nat) a + S1x5.size a ≤ S1x5.size a
  h_S1x5 : 0 < S1x5.numel
  inb_S1_S1_0 : ∀ a, (![0] : Fin 1 → Nat) a + S1.size a ≤ S1.size a
  h_S1 : 0 < S1.numel
  transposes_S1x5_p1_0_S5x1 : S1x5.Transposes [1, 0] S5x1
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x21_S21x20_S4096x20_1_0_0_1_n_n_wf : DotDims.WF S4096x21 S21x20 S4096x20 [1] [0] [0] [1] [] []
  dot_S4096x5_S5x20_S4096x20_1_0_0_1_n_n_wf : DotDims.WF S4096x5 S5x20 S4096x20 [1] [0] [0] [1] [] []
  dot_S4096x5_S5x1_S4096x1_1_0_0_1_n_n_wf : DotDims.WF S4096x5 S5x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x21.size a ≤ S1048576x21.size a
  hwx0_0 : ∀ i : grid0.Coords, EltTy.bits .f32 = 32 ∨ (Rect.block (s := S1048576x21) S4096x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x5.size a ≤ S2x1048576x5.size a
  hwx0_1 : ∀ i : grid0.Coords, EltTy.bits .f32 = 32 ∨ (Rect.block (s := S2x1048576x5) S2x4096x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x5.size a ≤ S2x1048576x5.size a
  hwx0_2 : ∀ i : grid0.Coords, EltTy.bits .f32 = 32 ∨ (Rect.block (s := S2x1048576x5) S2x4096x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x21.size a ≤ S20x21.size a
  hwx0_3 : ∀ i : grid0.Coords, EltTy.bits .f32 = 32 ∨ (Rect.block (s := S20x21) S20x21.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x5.size a ≤ S20x5.size a
  hwx0_4 : ∀ i : grid0.Coords, EltTy.bits .f32 = 32 ∨ (Rect.block (s := S20x5) S20x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20.size a ≤ S20.size a
  hwx0_5 : ∀ i : grid0.Coords, EltTy.bits .f32 = 32 ∨ (Rect.block (s := S20) S20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x5.size a ≤ S20x5.size a
  hwx0_6 : ∀ i : grid0.Coords, EltTy.bits .f32 = 32 ∨ (Rect.block (s := S20x5) S20x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x5.size a ≤ S20x5.size a
  hwx0_7 : ∀ i : grid0.Coords, EltTy.bits .f32 = 32 ∨ (Rect.block (s := S20x5) S20x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20.size a ≤ S20.size a
  hwx0_8 : ∀ i : grid0.Coords, EltTy.bits .f32 = 32 ∨ (Rect.block (s := S20) S20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x5.size a ≤ S1x5.size a
  hwx0_9 : ∀ i : grid0.Coords, EltTy.bits .f32 = 32 ∨ (Rect.block (s := S1x5) S1x5.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S1048576x1.size a
  hwx0_11 : ∀ i : grid0.Coords, EltTy.bits .f32 = 32 ∨ (Rect.block (s := S1048576x1) S4096x1.size (cc0_transform_11 i) (hinb0_11 i)).WholeWords (EltTy.packing .f32)

variable [Facts₀]

def dot_S4096x21_S21x20_S4096x20_1_0_0_1_n_n : DotDims S4096x21 S21x20 S4096x20 where
  lhsContracting := [1]
  rhsContracting := [0]
  lhsNonContracting := [0]
  rhsNonContracting := [1]
  lhsBatch := []
  rhsBatch := []
  wf := dot_S4096x21_S21x20_S4096x20_1_0_0_1_n_n_wf
def dot_S4096x5_S5x20_S4096x20_1_0_0_1_n_n : DotDims S4096x5 S5x20 S4096x20 where
  lhsContracting := [1]
  rhsContracting := [0]
  lhsNonContracting := [0]
  rhsNonContracting := [1]
  lhsBatch := []
  rhsBatch := []
  wf := dot_S4096x5_S5x20_S4096x20_1_0_0_1_n_n_wf
def dot_S4096x5_S5x1_S4096x1_1_0_0_1_n_n : DotDims S4096x5 S5x1 S4096x1 where
  lhsContracting := [1]
  rhsContracting := [0]
  lhsNonContracting := [0]
  rhsNonContracting := [1]
  lhsBatch := []
  rhsBatch := []
  wf := dot_S4096x5_S5x1_S4096x1_1_0_0_1_n_n_wf

abbrev win0_0 : Pipeline.Window sig grid0 :=
  Pipeline.Window.ofSpec (Memref.whole main_arg0) S4096x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x4096x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S20x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S20x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1x5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x21 : Shape := ⟨2, ![1048576, 21]⟩
abbrev S2x1048576x5 : Shape := ⟨3, ![2, 1048576, 5]⟩
abbrev S20x21 : Shape := ⟨2, ![20, 21]⟩
abbrev S20x5 : Shape := ⟨2, ![20, 5]⟩
abbrev S20 : Shape := ⟨1, ![20]⟩
abbrev S1x5 : Shape := ⟨2, ![1, 5]⟩
abbrev S1 : Shape := ⟨1, ![1]⟩
abbrev S1x1048576x5 : Shape := ⟨3, ![1, 1048576, 5]⟩
abbrev S1048576x5 : Shape := ⟨2, ![1048576, 5]⟩
abbrev S21x20 : Shape := ⟨2, ![21, 20]⟩
abbrev S1048576x20 : Shape := ⟨2, ![1048576, 20]⟩
abbrev S5x20 : Shape := ⟨2, ![5, 20]⟩
abbrev S1x20 : Shape := ⟨2, ![1, 20]⟩
abbrev S_ : Shape := ⟨0, ![]⟩
abbrev S5x1 : Shape := ⟨2, ![5, 1]⟩
abbrev S1048576x1 : Shape := ⟨2, ![1048576, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S1048576x21, .f32⟩
  | .hbm, ⟨1, _⟩ => ⟨S2x1048576x5, .f32⟩
  | .hbm, ⟨2, _⟩ => ⟨S2x1048576x5, .f32⟩
  | .hbm, ⟨3, _⟩ => ⟨S20x21, .f32⟩
  | .hbm, ⟨4, _⟩ => ⟨S20x5, .f32⟩
  | .hbm, ⟨5, _⟩ => ⟨S20, .f32⟩
  | .hbm, ⟨6, _⟩ => ⟨S20, .f32⟩
  | .hbm, ⟨7, _⟩ => ⟨S20x5, .f32⟩
  | .hbm, ⟨8, _⟩ => ⟨S20x5, .f32⟩
  | .hbm, ⟨9, _⟩ => ⟨S20, .f32⟩
  | .hbm, ⟨10, _⟩ => ⟨S20, .f32⟩
  | .hbm, ⟨11, _⟩ => ⟨S1x5, .f32⟩
  | .hbm, ⟨12, _⟩ => ⟨S1, .f32⟩
  | .hbm, ⟨13, _⟩ => ⟨S1x1048576x5, .f32⟩
  | .hbm, ⟨14, _⟩ => ⟨S1048576x5, .f32⟩
  | .hbm, ⟨15, _⟩ => ⟨S1x1048576x5, .f32⟩
  | .hbm, ⟨16, _⟩ => ⟨S1048576x5, .f32⟩
  | .hbm, ⟨17, _⟩ => ⟨S21x20, .f32⟩
  | .hbm, ⟨18, _⟩ => ⟨S1048576x20, .f32⟩
  | .hbm, ⟨19, _⟩ => ⟨S5x20, .f32⟩
  | .hbm, ⟨20, _⟩ => ⟨S1048576x20, .f32⟩
  | .hbm, ⟨21, _⟩ => ⟨S1048576x20, .f32⟩
  | .hbm, ⟨22, _⟩ => ⟨S20, .f32⟩
  | .hbm, ⟨23, _⟩ => ⟨S1x20, .f32⟩
  | .hbm, ⟨24, _⟩ => ⟨S1048576x20, .f32⟩
  | .hbm, ⟨25, _⟩ => ⟨S1048576x20, .f32⟩
  | .hbm, ⟨26, _⟩ => ⟨S1048576x5, .f32⟩
  | .hbm, ⟨27, _⟩ => ⟨S1048576x5, .f32⟩
  | .hbm, ⟨28, _⟩ => ⟨S1048576x5, .f32⟩
  | .hbm, ⟨29, _⟩ => ⟨S1048576x5, .f32⟩
  | .hbm, ⟨30, _⟩ => ⟨S1048576x5, .f32⟩
  | .hbm, ⟨31, _⟩ => ⟨S1048576x5, .f32⟩
  | .hbm, ⟨32, _⟩ => ⟨S_, .f32⟩
  | .hbm, ⟨33, _⟩ => ⟨S1048576x5, .f32⟩
  | .hbm, ⟨34, _⟩ => ⟨S1048576x5, .f32⟩
  | .hbm, ⟨35, _⟩ => ⟨S_, .f32⟩
  | .hbm, ⟨36, _⟩ => ⟨S1048576x5, .f32⟩
  | .hbm, ⟨37, _⟩ => ⟨S1048576x5, .f32⟩
  | .hbm, ⟨38, _⟩ => ⟨S1048576x5, .f32⟩
  | .hbm, ⟨39, _⟩ => ⟨S1048576x5, .f32⟩
  | .hbm, ⟨40, _⟩ => ⟨S_, .f32⟩
  | .hbm, ⟨41, _⟩ => ⟨S1048576x5, .f32⟩
  | .hbm, ⟨42, _⟩ => ⟨S1048576x5, .f32⟩
  | .hbm, ⟨43, _⟩ => ⟨S_, .f32⟩
  | .hbm, ⟨44, _⟩ => ⟨S1048576x5, .f32⟩
  | .hbm, ⟨45, _⟩ => ⟨S1048576x5, .f32⟩
  | .hbm, ⟨46, _⟩ => ⟨S1048576x5, .f32⟩
  | .hbm, ⟨47, _⟩ => ⟨S1048576x5, .f32⟩
  | .hbm, ⟨48, _⟩ => ⟨S1048576x5, .f32⟩
  | .hbm, ⟨49, _⟩ => ⟨S_, .f32⟩
  | .hbm, ⟨50, _⟩ => ⟨S1048576x5, .f32⟩
  | .hbm, ⟨51, _⟩ => ⟨S1048576x5, .f32⟩
  | .hbm, ⟨52, _⟩ => ⟨S_, .f32⟩
  | .hbm, ⟨53, _⟩ => ⟨S1048576x5, .f32⟩
  | .hbm, ⟨54, _⟩ => ⟨S1048576x5, .f32⟩
  | .hbm, ⟨55, _⟩ => ⟨S1048576x5, .f32⟩
  | .hbm, ⟨56, _⟩ => ⟨S1048576x5, .f32⟩
  | .hbm, ⟨57, _⟩ => ⟨S1048576x5, .f32⟩
  | .hbm, ⟨58, _⟩ => ⟨S1048576x5, .f32⟩
  | .hbm, ⟨59, _⟩ => ⟨S1048576x5, .f32⟩
  | .hbm, ⟨60, _⟩ => ⟨S1x1048576x5, .f32⟩
  | .hbm, ⟨61, _⟩ => ⟨S1048576x5, .f32⟩
  | .hbm, ⟨62, _⟩ => ⟨S1x1048576x5, .f32⟩
  | .hbm, ⟨63, _⟩ => ⟨S1048576x5, .f32⟩
  | .hbm, ⟨64, _⟩ => ⟨S5x20, .f32⟩
  | .hbm, ⟨65, _⟩ => ⟨S1048576x20, .f32⟩
  | .hbm, ⟨66, _⟩ => ⟨S5x20, .f32⟩
  | .hbm, ⟨67, _⟩ => ⟨S1048576x20, .f32⟩
  | .hbm, ⟨68, _⟩ => ⟨S1048576x20, .f32⟩
  | .hbm, ⟨69, _⟩ => ⟨S20, .f32⟩
  | .hbm, ⟨70, _⟩ => ⟨S1x20, .f32⟩
  | .hbm, ⟨71, _⟩ => ⟨S1048576x20, .f32⟩
  | .hbm, ⟨72, _⟩ => ⟨S1048576x20, .f32⟩
  | .hbm, ⟨73, _⟩ => ⟨S1048576x5, .f32⟩
  | .hbm, ⟨74, _⟩ => ⟨S1048576x5, .f32⟩
  | .hbm, ⟨75, _⟩ => ⟨S1048576x5, .f32⟩
  | .hbm, ⟨76, _⟩ => ⟨S1048576x5, .f32⟩
  | .hbm, ⟨77, _⟩ => ⟨S1048576x5, .f32⟩
  | .hbm, ⟨78, _⟩ => ⟨S1048576x5, .f32⟩
  | .hbm, ⟨79, _⟩ => ⟨S_, .f32⟩
  | .hbm, ⟨80, _⟩ => ⟨S1048576x5, .f32⟩
  | .hbm, ⟨81, _⟩ => ⟨S1048576x5, .f32⟩
  | .hbm, ⟨82, _⟩ => ⟨S_, .f32⟩
  | .hbm, ⟨83, _⟩ => ⟨S1048576x5, .f32⟩
  | .hbm, ⟨84, _⟩ => ⟨S1048576x5, .f32⟩
  | .hbm, ⟨85, _⟩ => ⟨S1048576x5, .f32⟩
  | .hbm, ⟨86, _⟩ => ⟨S1048576x5, .f32⟩
  | .hbm, ⟨87, _⟩ => ⟨S_, .f32⟩
  | .hbm, ⟨88, _⟩ => ⟨S1048576x5, .f32⟩
  | .hbm, ⟨89, _⟩ => ⟨S1048576x5, .f32⟩
  | .hbm, ⟨90, _⟩ => ⟨S_, .f32⟩
  | .hbm, ⟨91, _⟩ => ⟨S1048576x5, .f32⟩
  | .hbm, ⟨92, _⟩ => ⟨S1048576x5, .f32⟩
  | .hbm, ⟨93, _⟩ => ⟨S1048576x5, .f32⟩
  | .hbm, ⟨94, _⟩ => ⟨S1048576x5, .f32⟩
  | .hbm, ⟨95, _⟩ => ⟨S1048576x5, .f32⟩
  | .hbm, ⟨96, _⟩ => ⟨S_, .f32⟩
  | .hbm, ⟨97, _⟩ => ⟨S1048576x5, .f32⟩
  | .hbm, ⟨98, _⟩ => ⟨S1048576x5, .f32⟩
  | .hbm, ⟨99, _⟩ => ⟨S_, .f32⟩
  | .hbm, ⟨100, _⟩ => ⟨S1048576x5, .f32⟩
  | .hbm, ⟨101, _⟩ => ⟨S1048576x5, .f32⟩
  | .hbm, ⟨102, _⟩ => ⟨S1048576x5, .f32⟩
  | .hbm, ⟨103, _⟩ => ⟨S1048576x5, .f32⟩
  | .hbm, ⟨104, _⟩ => ⟨S1048576x5, .f32⟩
  | .hbm, ⟨105, _⟩ => ⟨S1048576x5, .f32⟩
  | .hbm, ⟨106, _⟩ => ⟨S1048576x5, .f32⟩
  | .hbm, ⟨107, _⟩ => ⟨S5x1, .f32⟩
  | .hbm, ⟨108, _⟩ => ⟨S1048576x1, .f32⟩
  | .hbm, ⟨109, _⟩ => ⟨S1x1, .f32⟩
  | .hbm, ⟨110, _⟩ => ⟨S1048576x1, .f32⟩
  | .hbm, ⟨111, _⟩ => ⟨S1048576x1, .f32⟩
  | .hbm, ⟨112, _⟩ => ⟨S1048576x1, .f32⟩
  | _, _ => ⟨S1048576x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]

class Facts₀ : Prop where
  slices_S2x1048576x5_S1x1048576x5_0_0_0 : S2x1048576x5.Slices ![0, 0, 0] S1x1048576x5
  shapeCasts_S1x1048576x5_S1048576x5 : S1x1048576x5.ShapeCasts S1048576x5
  transposes_S20x21_S21x20_1_0 : S20x21.Transposes [1, 0] S21x20
  transposes_S20x5_S5x20_1_0 : S20x5.Transposes [1, 0] S5x20
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  slices_S1048576x20_S1048576x5_0_0 : S1048576x20.Slices ![0, 0] S1048576x5
  slices_S1048576x20_S1048576x5_0_5 : S1048576x20.Slices ![0, 5] S1048576x5
  slices_S1048576x20_S1048576x5_0_10 : S1048576x20.Slices ![0, 10] S1048576x5
  slices_S1048576x20_S1048576x5_0_15 : S1048576x20.Slices ![0, 15] S1048576x5
  bcast_S_S1048576x5 : S_.BroadcastsInDim S1048576x5 (![] : Fin 0 → Fin S1048576x5.rank)
  slices_S2x1048576x5_S1x1048576x5_1_0_0 : S2x1048576x5.Slices ![1, 0, 0] S1x1048576x5
  transposes_S1x5_S5x1_1_0 : S1x5.Transposes [1, 0] S5x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x21_S21x20_S1048576x20_1_0_0_1_n_n_wf : DotDims.WF S1048576x21 S21x20 S1048576x20 [1] [0] [0] [1] [] []
  dot_S1048576x5_S5x20_S1048576x20_1_0_0_1_n_n_wf : DotDims.WF S1048576x5 S5x20 S1048576x20 [1] [0] [0] [1] [] []
  dot_S1048576x5_S5x1_S1048576x1_1_0_0_1_n_n_wf : DotDims.WF S1048576x5 S5x1 S1048576x1 [1] [0] [0] [1] [] []

variable [Facts₀]

def dot_S1048576x21_S21x20_S1048576x20_1_0_0_1_n_n : DotDims S1048576x21 S21x20 S1048576x20 where
  lhsContracting := [1]
  rhsContracting := [0]
  lhsNonContracting := [0]
  rhsNonContracting := [1]
  lhsBatch := []
  rhsBatch := []
  wf := dot_S1048576x21_S21x20_S1048576x20_1_0_0_1_n_n_wf
def dot_S1048576x5_S5x20_S1048576x20_1_0_0_1_n_n : DotDims S1048576x5 S5x20 S1048576x20 where
  lhsContracting := [1]
  rhsContracting := [0]
  lhsNonContracting := [0]
  rhsNonContracting := [1]
  lhsBatch := []
  rhsBatch := []
  wf := dot_S1048576x5_S5x20_S1048576x20_1_0_0_1_n_n_wf
def dot_S1048576x5_S5x1_S1048576x1_1_0_0_1_n_n : DotDims S1048576x5 S5x1 S1048576x1 where
  lhsContracting := [1]
  rhsContracting := [0]
  lhsNonContracting := [0]
  rhsNonContracting := [1]
  lhsBatch := []
  rhsBatch := []
  wf := dot_S1048576x5_S5x1_S1048576x1_1_0_0_1_n_n_wf

class Facts : Prop extends Facts₀ where

variable [Facts]
-- ==== Proof.Spec.lean ====
/-
  One time step of a two-layer LSTM of hidden width 5 followed by a linear read-out and a hyperbolic tangent, for ONE
  batch row, on the extended reals.

  A cell takes an input row `x`, the layer's previous hidden row `h` and cell row `c`, and forms twenty gate
  pre-activations `z j = x · Wx j + h · Wh j + b j` (`pre`). Columns 0–4 are the input gate, 5–9 the forget gate,
  10–14 the candidate and 15–19 the output gate. With `σ z = 1 / (1 + e^(-z))` the new cell entry is
  `σ (z_f) · c + σ (z_i) · tanh (z_g)` and the new hidden entry `σ (z_o) · tanh` of it (`hnew`). The second layer's
  input row is the first layer's new hidden row; the result is `tanh (h₂ · Wl + bl)` (`out`).

  `rowOut` reads the row data out of arrays laid out as the programs hold them — the input `[N, 21]`, the two layers'
  hidden and cell states stacked `[2, N, 5]`, the weights `[20, ·]` with the gate index first — for any number of rows
  `N`, so that the same function describes a block of rows and the whole batch.
-/
import Idealize.ShloMosaic.PureOps.Ideal
import Idealize.ShloMosaic.PureOps.Ideal.Laws
import Idealize.ShloMosaic.Lib.ValueIdx

noncomputable section

namespace Cert.LstmStep

open Idealize.ShloMosaic Idealize.ShloMosaic.ValueIdx

/-- The float32 pattern of the number one, kept as a pattern: both programs spell the same word. -/
abbrev one : EReal := Ideal.ofBits .f32 0x3F800000#32

/-- The logistic function as both programs compute it: `1 / (1 + e^(-z))`. -/
def sigm (z : EReal) : EReal := Ideal.div one (one + Ideal.exp (-z))

/-- The float32 pattern of zero. -/
abbrev zero : EReal := Ideal.ofBits .f32 0x00000000#32

/-- Subtracting from the zero pattern is negation, on every extended real: `0 - z = -z` needs no finiteness. -/
theorem sigm_of_zero_sub (z : EReal) : Ideal.div one (one + Ideal.exp (zero - z)) = sigm z := by
  show Ideal.div one (one + Ideal.exp (Ideal.ofBits .f32 0x00000000#32 - z)) = sigm z
  rw [Ideal.ofBits_zero_f32, zero_sub]
  rfl

/-- Gate pre-activation `j` of a cell: `x · Wx j + h · Wh j + b j`, grouped as the programs add them. -/
def pre {K : ℕ} (x : Fin K → EReal) (h : Fin 5 → EReal) (Wx : Fin 20 → Fin K → EReal) (Wh : Fin 20 → Fin 5 → EReal)
    (b : Fin 20 → EReal) (j : Fin 20) : EReal :=
  (∑ k, x k * Wx j k) + (∑ k, h k * Wh j k) + b j

/-- The columns of the four gates for hidden unit `k`. -/
def colI (k : Fin 5) : Fin 20 := ⟨k.val, by omega⟩
def colF (k : Fin 5) : Fin 20 := ⟨5 + k.val, by omega⟩
def colG (k : Fin 5) : Fin 20 := ⟨10 + k.val, by omega⟩
def colO (k : Fin 5) : Fin 20 := ⟨15 + k.val, by omega⟩

/-- The new hidden entry `k` from the twenty pre-activations and the old cell row. -/
def hnew (z : Fin 20 → EReal) (c : Fin 5 → EReal) (k : Fin 5) : EReal :=
  sigm (z (colO k)) * Ideal.tanh (sigm (z (colF k)) * c k + sigm (z (colI k)) * Ideal.tanh (z (colG k)))

/-- The new hidden entry from its parts as a program that negates by `0 - z` holds them: the forget, candidate and output
    pre-activations `aF aG aO` and the input gate's value `gI` already formed. -/
theorem hnew_of_parts (z : Fin 20 → EReal) (c : Fin 5 → EReal) (k : Fin 5) (aF aG aO gI ck : EReal)
    (hF : aF = z (colF k)) (hG : aG = z (colG k)) (hO : aO = z (colO k)) (hI : gI = sigm (z (colI k))) (hc : ck = c k) :
    Ideal.div one (one + Ideal.exp (zero - aO))
        * Ideal.tanh (Ideal.div one (one + Ideal.exp (zero - aF)) * ck + gI * Ideal.tanh aG)
      = hnew z c k := by
  subst hF hG hO hI hc
  rw [sigm_of_zero_sub, sigm_of_zero_sub]
  rfl

/-- The whole step for one row. -/
def out (x : Fin 21 → EReal) (h0 c0 h1 c1 : Fin 5 → EReal)
    (Wx0 : Fin 20 → Fin 21 → EReal) (Wh0 : Fin 20 → Fin 5 → EReal) (b0 : Fin 20 → EReal)
    (Wx1 Wh1 : Fin 20 → Fin 5 → EReal) (b1 : Fin 20 → EReal) (Wl : Fin 5 → EReal) (bl : EReal) : EReal :=
  Ideal.tanh ((∑ k, hnew (pre (hnew (pre x h0 Wx0 Wh0 b0) c0) h1 Wx1 Wh1 b1) c1 k * Wl k) + bl)

/-- Row `r` of the step, the row data read out of arrays of `N` rows. -/
def rowOut {N : ℕ} (x : (⟨2, ![N, 21]⟩ : Shape).Idx → EReal) (h c : (⟨3, ![2, N, 5]⟩ : Shape).Idx → EReal)
    (Wx0 : (⟨2, ![20, 21]⟩ : Shape).Idx → EReal) (Wh0 : (⟨2, ![20, 5]⟩ : Shape).Idx → EReal)
    (b0 : (⟨1, ![20]⟩ : Shape).Idx → EReal)
    (Wx1 Wh1 : (⟨2, ![20, 5]⟩ : Shape).Idx → EReal) (b1 : (⟨1, ![20]⟩ : Shape).Idx → EReal)
    (Wl : (⟨2, ![1, 5]⟩ : Shape).Idx → EReal) (bl : (⟨1, ![1]⟩ : Shape).Idx → EReal) (r : Fin N) : EReal :=
  out (fun k => x (ix2 r k)) (fun k => h (ix3 (0 : Fin 2) r k)) (fun k => c (ix3 (0 : Fin 2) r k))
    (fun k => h (ix3 (1 : Fin 2) r k)) (fun k => c (ix3 (1 : Fin 2) r k))
    (fun j k => Wx0 (ix2 j k)) (fun j k => Wh0 (ix2 j k)) (fun j => b0 (ix1 j))
    (fun j k => Wx1 (ix2 j k)) (fun j k => Wh1 (ix2 j k)) (fun j => b1 (ix1 j))
    (fun k => Wl (ix2 (0 : Fin 1) k)) (bl (ix1 (0 : Fin 1)))

/-- The batch of 1048576 rows as one array `[1048576, 1]`. -/
def G (x : (⟨2, ![1048576, 21]⟩ : Shape).Idx → EReal) (h c : (⟨3, ![2, 1048576, 5]⟩ : Shape).Idx → EReal)
    (Wx0 : (⟨2, ![20, 21]⟩ : Shape).Idx → EReal) (Wh0 : (⟨2, ![20, 5]⟩ : Shape).Idx → EReal)
    (b0 : (⟨1, ![20]⟩ : Shape).Idx → EReal)
    (Wx1 Wh1 : (⟨2, ![20, 5]⟩ : Shape).Idx → EReal) (b1 : (⟨1, ![20]⟩ : Shape).Idx → EReal)
    (Wl : (⟨2, ![1, 5]⟩ : Shape).Idx → EReal) (bl : (⟨1, ![1]⟩ : Shape).Idx → EReal) :
    (⟨2, ![1048576, 1]⟩ : Shape).Idx → EReal :=
  fun i => rowOut x h c Wx0 Wh0 b0 Wx1 Wh1 b1 Wl bl (i 0)

end Cert.LstmStep

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.Body.lean ====
/-
  The kernel body's arithmetic, read at one row of a block.

  The body works on a block of 4096 rows. Its values are the skeleton's pure terms: the first cell's twenty
  pre-activations (two products of a row block with a transposed weight matrix, added, plus the bias row), their four
  slices of five columns, the pointwise gate arithmetic, the second cell's pre-activations formed the same way from the
  first cell's new hidden rows, and the read-out. Read at row `p` these are `pre`, `hnew` and `out` of the row's data:
  a product with a transposed weight is `∑ k, x (p, k) * W (j, k)`; a `[1, 4096, 5]` slab viewed as `[4096, 5]` reads
  the slab at `(0, p, k)`; a bias vector cast to a row and broadcast over the block reads the vector at the column.
  The body forms `-z` as `0 - z`, which is the same extended real.
-/
import proofs.«148989_j35751307772400_1_alg».proof.Proof.Gen.KernelIdeal.Skeleton
import proofs.«148989_j35751307772400_1_alg».proof.Proof.Spec
import proofs.«148989_j35751307772400_1_alg».proof.Proof.LibPlainDot
import Idealize.ShloMosaic.Lib.ValueLayout
import Idealize.ShloMosaic.Lib.Pipeline.Value

noncomputable section

namespace Cert.LstmStep.Body

open Cert.KernelIdeal Cert.KernelIdeal.Gen Idealize.ShloMosaic Idealize.ShloMosaic.ValueIdx Cert.LstmStep

/-! ## Products, slabs and bias rows at coordinates -/

/-- A row block times a transposed weight matrix, both narrowed to bfloat16 (the identity on extended reals), into a zero
    accumulator: entry `(p, j)` is `∑ k, x (p, k) * W (j, k)`. -/
theorem dotT_apply {M K J : ℕ} (wf : DotDims.WF ⟨2, ![M, K]⟩ ⟨2, ![K, J]⟩ ⟨2, ![M, J]⟩ [1] [0] [0] [1] [] [])
    (x : FVec Ideal ⟨2, ![M, K]⟩ .f32) (W : FVec Ideal ⟨2, ![J, K]⟩ .f32) (hb : FTy.bits .bf16 < FTy.bits .f32)
    (hT : (⟨2, ![J, K]⟩ : Shape).Transposes [1, 0] ⟨2, ![K, J]⟩) (p : Fin M) (j : Fin J) :
    FloatOps.matmul (PlainDot.dims M K J wf) none (truncf .bf16 x hb)
        (transpose ⟨2, ![K, J]⟩ [1, 0] (truncf .bf16 W hb) hT) (constant ⟨2, ![M, J]⟩ .f32 0x00000000#32) (ix2 p j)
      = ∑ k : Fin K, x (ix2 p k) * W (ix2 j k) := by
  refine (PlainDot.matmul_zero_apply wf none _ _ p j).trans ?_
  refine Finset.sum_congr rfl fun k _ => ?_
  exact congrArg (x (ix2 p k) * ·) (transpose_ix2_apply (truncf .bf16 W hb) hT k j)

/-- The columns of a gate inside the twenty pre-activations. -/
theorem gateI_apply (z : FVec Ideal S4096x20 .f32) (p : Fin 4096) (k : Fin 5) :
    extractStridedSlice S4096x5 ![0, 0] z slices_S4096x20_o0_0_S4096x5 (ix2 p k) = z (ix2 p (colI k)) :=
  slice2_axis1_apply 0 z slices_S4096x20_o0_0_S4096x5 p k (colI k) (Nat.zero_add _).symm

theorem gateF_apply (z : FVec Ideal S4096x20 .f32) (p : Fin 4096) (k : Fin 5) :
    extractStridedSlice S4096x5 ![0, 5] z slices_S4096x20_o0_5_S4096x5 (ix2 p k) = z (ix2 p (colF k)) :=
  slice2_axis1_apply 5 z slices_S4096x20_o0_5_S4096x5 p k (colF k) rfl

theorem gateG_apply (z : FVec Ideal S4096x20 .f32) (p : Fin 4096) (k : Fin 5) :
    extractStridedSlice S4096x5 ![0, 10] z slices_S4096x20_o0_10_S4096x5 (ix2 p k) = z (ix2 p (colG k)) :=
  slice2_axis1_apply 10 z slices_S4096x20_o0_10_S4096x5 p k (colG k) rfl

theorem gateO_apply (z : FVec Ideal S4096x20 .f32) (p : Fin 4096) (k : Fin 5) :
    extractStridedSlice S4096x5 ![0, 15] z slices_S4096x20_o0_15_S4096x5 (ix2 p k) = z (ix2 p (colO k)) :=
  slice2_axis1_apply 15 z slices_S4096x20_o0_15_S4096x5 p k (colO k) rfl

/-- A bias vector cast to a row and broadcast over the block's rows reads the vector at the column. -/
theorem biasRow_apply (b : Vec Ideal S20 .f32) (p : Fin 4096) (j : Fin 20) :
    broadcastTo S4096x20 (shapeCast S1x20 (shapeCast S20 b shapeCasts_S20_S20) shapeCasts_S20_S1x20)
        broadcasts_S1x20_S4096x20 (ix2 p j) = b (ix1 j) := by
  rw [broadcastTo_1b_ab_apply, shapeCast_a_1a_apply, shapeCast_self]

/-! ## The two cells and the read-out at row `p` -/

/-- THE FIRST CELL'S PRE-ACTIVATIONS at row `p` of the block. -/
theorem gates0_apply (v0 : Vec Ideal S4096x21 .f32) (h0 : Vec Ideal S1x4096x5 .f32) (w0 : Vec Ideal S20x21 .f32)
    (u0 : Vec Ideal S20x5 .f32) (b0 : Vec Ideal S20 .f32) (p : Fin 4096) (j : Fin 20) :
    k0_pay5 (F := Ideal) v0 h0 w0 u0 b0 (ix2 p j)
      = pre (fun k => v0 (ix2 p k)) (fun k => h0 (ix3 (0 : Fin 1) p k)) (fun j k => w0 (ix2 j k))
          (fun j k => u0 (ix2 j k)) (fun j => b0 (ix1 j)) j := by
  have hX := dotT_apply dot_S4096x21_S21x20_S4096x20_1_0_0_1_n_n_wf v0 w0 bitsLt_bf16_f32 transposes_S20x21_p1_0_S21x20 p j
  have hH := dotT_apply dot_S4096x5_S5x20_S4096x20_1_0_0_1_n_n_wf (shapeCast S4096x5 h0 shapeCasts_S1x4096x5_S4096x5) u0
    bitsLt_bf16_f32 transposes_S20x5_p1_0_S5x20 p j
  have hH' : (∑ k : Fin 5, shapeCast S4096x5 h0 shapeCasts_S1x4096x5_S4096x5 (ix2 p k) * u0 (ix2 j k))
      = ∑ k : Fin 5, h0 (ix3 (0 : Fin 1) p k) * u0 (ix2 j k) :=
    Finset.sum_congr rfl fun k _ => congrArg (· * u0 (ix2 j k)) (shapeCast_1ab_ab_apply h0 shapeCasts_S1x4096x5_S4096x5 p k)
  exact congrArg₂ (· + ·) (congrArg₂ (· + ·) hX (hH.trans hH')) (biasRow_apply b0 p j)

/-- THE SECOND CELL'S PRE-ACTIVATIONS at row `p`, from vectors holding the first cell's gate columns: `v26 v27 v28` the
    forget, candidate and output pre-activations, `v34 / v33` the input gate's value, `v6` the first layer's old cell
    rows, `v4` the second layer's old hidden rows. -/
theorem gates1_apply (v4 v6 v26 v27 v28 v33 v34 : FVec Ideal S4096x5 .f32) (w1 u1 : Vec Ideal S20x5 .f32)
    (b1 : Vec Ideal S20 .f32) (p : Fin 4096) (j : Fin 20) (z : Fin 20 → EReal) (c hin : Fin 5 → EReal)
    (h26 : ∀ k, v26 (ix2 p k) = z (colF k)) (h27 : ∀ k, v27 (ix2 p k) = z (colG k)) (h28 : ∀ k, v28 (ix2 p k) = z (colO k))
    (hI : ∀ k, Ideal.div (v34 (ix2 p k)) (v33 (ix2 p k)) = sigm (z (colI k)))
    (h6 : ∀ k, v6 (ix2 p k) = c k) (h4 : ∀ k, v4 (ix2 p k) = hin k) :
    k0_pay11 (F := Ideal) v4 v6 v26 v27 v28 v33 v34 w1 u1 b1 (ix2 p j)
      = pre (hnew z c) hin (fun j k => w1 (ix2 j k)) (fun j k => u1 (ix2 j k)) (fun j => b1 (ix1 j)) j := by
  have hX := dotT_apply dot_S4096x5_S5x20_S4096x20_1_0_0_1_n_n_wf
    (mulf (divf (broadcast S4096x5 (Scalar.ofBits .f32 0x3F800000#32))
        (addf (broadcast S4096x5 (Scalar.ofBits .f32 0x3F800000#32))
          (exp (subf (broadcast S4096x5 (Scalar.ofBits .f32 0x00000000#32)) v28))))
      (tanh (addf (mulf (divf (broadcast S4096x5 (Scalar.ofBits .f32 0x3F800000#32))
          (addf (broadcast S4096x5 (Scalar.ofBits .f32 0x3F800000#32))
            (exp (subf (broadcast S4096x5 (Scalar.ofBits .f32 0x00000000#32)) v26)))) v6)
        (mulf (divf v34 v33) (tanh v27)))))
    w1 bitsLt_bf16_f32 transposes_S20x5_p1_0_S5x20 p j
  have hX' : ∀ k : Fin 5, (mulf (divf (broadcast S4096x5 (Scalar.ofBits .f32 0x3F800000#32))
        (addf (broadcast S4096x5 (Scalar.ofBits .f32 0x3F800000#32))
          (exp (subf (broadcast S4096x5 (Scalar.ofBits .f32 0x00000000#32)) v28))))
      (tanh (addf (mulf (divf (broadcast S4096x5 (Scalar.ofBits .f32 0x3F800000#32))
          (addf (broadcast S4096x5 (Scalar.ofBits .f32 0x3F800000#32))
            (exp (subf (broadcast S4096x5 (Scalar.ofBits .f32 0x00000000#32)) v26)))) v6)
        (mulf (divf v34 v33) (tanh v27)))) : FVec Ideal S4096x5 .f32) (ix2 p k) = hnew z c k :=
    fun k => hnew_of_parts z c k _ _ _ _ _ (h26 k) (h27 k) (h28 k) (hI k) (h6 k)
  have hH := dotT_apply dot_S4096x5_S5x20_S4096x20_1_0_0_1_n_n_wf v4 u1 bitsLt_bf16_f32 transposes_S20x5_p1_0_S5x20 p j
  refine congrArg₂ (· + ·) (congrArg₂ (· + ·) (hX.trans ?_) (hH.trans ?_)) (biasRow_apply b1 p j)
  · exact Finset.sum_congr rfl fun k _ => congrArg (· * w1 (ix2 j k)) (hX' k)
  · exact Finset.sum_congr rfl fun k _ => congrArg (· * u1 (ix2 j k)) (h4 k)

/-- THE READ-OUT at row `p`, from vectors holding the second cell's gate columns: `v73 v74 v75` the forget, candidate and
    output pre-activations, `1 / (v79 + v78)` the input gate's value, `v8` the second layer's old cell rows. -/
theorem readout_apply (v8 v73 v74 v75 v78 v79 : FVec Ideal S4096x5 .f32) (wl : Vec Ideal S1x5 .f32) (bl : Vec Ideal S1 .f32)
    (p : Fin 4096) (q : Fin 1) (z : Fin 20 → EReal) (c : Fin 5 → EReal)
    (h73 : ∀ k, v73 (ix2 p k) = z (colF k)) (h74 : ∀ k, v74 (ix2 p k) = z (colG k)) (h75 : ∀ k, v75 (ix2 p k) = z (colO k))
    (hI : ∀ k, Ideal.div one (v79 (ix2 p k) + v78 (ix2 p k)) = sigm (z (colI k)))
    (h8 : ∀ k, v8 (ix2 p k) = c k) :
    k0_pay1 (F := Ideal) v8 v73 v74 v75 v78 v79 wl bl (ix2 p q)
      = Ideal.tanh ((∑ k, hnew z c k * wl (ix2 (0 : Fin 1) k)) + bl (ix1 (0 : Fin 1))) := by
  have hq : q = 0 := Subsingleton.elim _ _
  subst hq
  have hX := dotT_apply dot_S4096x5_S5x1_S4096x1_1_0_0_1_n_n_wf
    (mulf (divf (broadcast S4096x5 (Scalar.ofBits .f32 0x3F800000#32))
        (addf (broadcast S4096x5 (Scalar.ofBits .f32 0x3F800000#32))
          (exp (subf (broadcast S4096x5 (Scalar.ofBits .f32 0x00000000#32)) v75))))
      (tanh (addf (mulf (divf (broadcast S4096x5 (Scalar.ofBits .f32 0x3F800000#32))
          (addf (broadcast S4096x5 (Scalar.ofBits .f32 0x3F800000#32))
            (exp (subf (broadcast S4096x5 (Scalar.ofBits .f32 0x00000000#32)) v73)))) v8)
        (mulf (divf (broadcast S4096x5 (Scalar.ofBits .f32 0x3F800000#32)) (addf v79 v78)) (tanh v74)))))
    wl bitsLt_bf16_f32 transposes_S1x5_p1_0_S5x1 p (0 : Fin 1)
  have hX' : ∀ k : Fin 5, (mulf (divf (broadcast S4096x5 (Scalar.ofBits .f32 0x3F800000#32))
        (addf (broadcast S4096x5 (Scalar.ofBits .f32 0x3F800000#32))
          (exp (subf (broadcast S4096x5 (Scalar.ofBits .f32 0x00000000#32)) v75))))
      (tanh (addf (mulf (divf (broadcast S4096x5 (Scalar.ofBits .f32 0x3F800000#32))
          (addf (broadcast S4096x5 (Scalar.ofBits .f32 0x3F800000#32))
            (exp (subf (broadcast S4096x5 (Scalar.ofBits .f32 0x00000000#32)) v73)))) v8)
        (mulf (divf (broadcast S4096x5 (Scalar.ofBits .f32 0x3F800000#32)) (addf v79 v78)) (tanh v74)))) :
          FVec Ideal S4096x5 .f32) (ix2 p k) = hnew z c k :=
    fun k => hnew_of_parts z c k _ _ _ _ _ (h73 k) (h74 k) (h75 k) (hI k) (h8 k)
  have hB : broadcastTo S4096x1 (shapeCast S1x1 bl shapeCasts_S1_S1x1) broadcasts_S1x1_S4096x1 (ix2 p (0 : Fin 1))
      = bl (ix1 (0 : Fin 1)) := by
    rw [broadcastTo_1b_ab_apply, shapeCast_a_1a_apply]
  refine congrArg Ideal.tanh (congrArg₂ (· + ·) (hX.trans ?_) hB)
  exact Finset.sum_congr rfl fun k _ => congrArg (· * wl (ix2 (0 : Fin 1) k)) (hX' k)

/-! ## The whole body at row `p` -/

/-- THE BODY'S STORED VALUE at row `p` of the block is the LSTM step of the row's data: `v0` the input block, `h0 h1` /
    `c0 c1` the two layers' hidden / cell slabs as loaded, the weights and (already summed) biases whole. -/
theorem payload_apply (v0 : Vec Ideal S4096x21 .f32) (h0 h1 c0 c1 : Vec Ideal S1x4096x5 .f32)
    (w0 : Vec Ideal S20x21 .f32) (u0 : Vec Ideal S20x5 .f32) (b0 : Vec Ideal S20 .f32)
    (w1 u1 : Vec Ideal S20x5 .f32) (b1 : Vec Ideal S20 .f32) (wl : Vec Ideal S1x5 .f32) (bl : Vec Ideal S1 .f32)
    (p : Fin 4096) (q : Fin 1) :
    k0_pay1 (F := Ideal) (k0_pay4 c1) (k0_pay12 (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) (k0_pay13 (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1)
        (k0_pay14 (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) (k0_pay15 (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) (k0_pay16 (F := Ideal)) wl bl (ix2 p q)
      = out (fun k => v0 (ix2 p k)) (fun k => h0 (ix3 (0 : Fin 1) p k)) (fun k => c0 (ix3 (0 : Fin 1) p k))
          (fun k => h1 (ix3 (0 : Fin 1) p k)) (fun k => c1 (ix3 (0 : Fin 1) p k))
          (fun j k => w0 (ix2 j k)) (fun j k => u0 (ix2 j k)) (fun j => b0 (ix1 j))
          (fun j k => w1 (ix2 j k)) (fun j k => u1 (ix2 j k)) (fun j => b1 (ix1 j))
          (fun k => wl (ix2 (0 : Fin 1) k)) (bl (ix1 (0 : Fin 1))) := by
  -- the two cells' pre-activations at row `p`
  have e0 : (fun j => k0_pay5 (F := Ideal) v0 h0 w0 u0 b0 (ix2 p j))
      = pre (fun k => v0 (ix2 p k)) (fun k => h0 (ix3 (0 : Fin 1) p k)) (fun j k => w0 (ix2 j k))
          (fun j k => u0 (ix2 j k)) (fun j => b0 (ix1 j)) :=
    funext fun j => gates0_apply v0 h0 w0 u0 b0 p j
  have e1 : (fun j => k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1 (ix2 p j))
      = pre (hnew (fun j => k0_pay5 (F := Ideal) v0 h0 w0 u0 b0 (ix2 p j)) (fun k => c0 (ix3 (0 : Fin 1) p k)))
          (fun k => h1 (ix3 (0 : Fin 1) p k)) (fun j k => w1 (ix2 j k)) (fun j k => u1 (ix2 j k)) (fun j => b1 (ix1 j)) :=
    funext fun j => gates1_apply _ _ _ _ _ _ _ w1 u1 b1 p j (fun j => k0_pay5 (F := Ideal) v0 h0 w0 u0 b0 (ix2 p j)) _ _
      (fun k => gateF_apply (k0_pay5 (F := Ideal) v0 h0 w0 u0 b0) p k)
      (fun k => gateG_apply (k0_pay5 (F := Ideal) v0 h0 w0 u0 b0) p k)
      (fun k => gateO_apply (k0_pay5 (F := Ideal) v0 h0 w0 u0 b0) p k)
      (fun k => (congrArg (fun t => Ideal.div one (one + Ideal.exp (zero - t)))
        (gateI_apply (k0_pay5 (F := Ideal) v0 h0 w0 u0 b0) p k)).trans (sigm_of_zero_sub _))
      (fun k => shapeCast_1ab_ab_apply c0 shapeCasts_S1x4096x5_S4096x5 p k)
      (fun k => shapeCast_1ab_ab_apply h1 shapeCasts_S1x4096x5_S4096x5 p k)
  refine (readout_apply _ _ _ _ _ _ wl bl p q (fun j => k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1 (ix2 p j))
      (fun k => c1 (ix3 (0 : Fin 1) p k))
      (fun k => gateF_apply (k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) p k)
      (fun k => gateG_apply (k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) p k)
      (fun k => gateO_apply (k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) p k)
      (fun k => (congrArg (fun t => Ideal.div one (one + Ideal.exp (zero - t)))
        (gateI_apply (k0_pay11 (F := Ideal) (k0_pay2 h1) (k0_pay3 c0) (k0_pay6 v0 h0 w0 u0 b0) (k0_pay7 v0 h0 w0 u0 b0) (k0_pay8 v0 h0 w0 u0 b0) (k0_pay9 v0 h0 w0 u0 b0) (k0_pay10 (F := Ideal)) w1 u1 b1) p k)).trans (sigm_of_zero_sub _))
      (fun k => shapeCast_1ab_ab_apply c1 shapeCasts_S1x4096x5_S4096x5 p k)).trans ?_
  rw [e1, e0]
  rfl

end Cert.LstmStep.Body

end
-- ==== Proof.Blocks.lean ====
/-
  From the blocks to the whole result array.

  The grid has 256 points; point `t` works on rows `4096 t … 4096 t + 4095`. Its input windows hold those rows of the
  input, both slabs of the stacked hidden and cell states at those rows, and the weights and biases whole; its output
  window writes back those rows of the result. What the body leaves in the output block at row `p` is the LSTM step of
  the block's row `p` (Body.lean), and the block's row `p` is the arrays' row `4096 t + p`, so point `t` writes block
  `t` of `G` of the arrays. The 256 blocks cover all 1048576 rows, hence the array ends holding `G`. Two of the arrays
  the region finds were written by the host before it: the two layers' bias vectors, each the sum of its two arguments.
-/
import proofs.«148989_j35751307772400_1_alg».proof.Proof.Gen.KernelIdeal.Value
import proofs.«148989_j35751307772400_1_alg».proof.Proof.Body
import Idealize.ShloMosaic.Lib.StableHlo.Run

set_option maxRecDepth 16384

noncomputable section

namespace Cert.LstmStep.Blocks

open Cert.KernelIdeal Cert.KernelIdeal.Gen Idealize.ShloMosaic Idealize.ShloMosaic.TcCoe Idealize.SL.Sem
open Idealize.ShloMosaic.ValueIdx Cert.LstmStep
open Idealize.ShloMosaic.Pipeline (Dat)

/-! ## The step depends on the row's data only -/

/-- Two rows, of arrays of any two heights, whose data agree have the same step. -/
theorem rowOut_congr {N N' : ℕ} (x : (⟨2, ![N, 21]⟩ : Shape).Idx → EReal) (h c : (⟨3, ![2, N, 5]⟩ : Shape).Idx → EReal)
    (x' : (⟨2, ![N', 21]⟩ : Shape).Idx → EReal) (h' c' : (⟨3, ![2, N', 5]⟩ : Shape).Idx → EReal)
    (Wx0 : (⟨2, ![20, 21]⟩ : Shape).Idx → EReal) (Wh0 : (⟨2, ![20, 5]⟩ : Shape).Idx → EReal)
    (b0 : (⟨1, ![20]⟩ : Shape).Idx → EReal)
    (Wx1 Wh1 : (⟨2, ![20, 5]⟩ : Shape).Idx → EReal) (b1 : (⟨1, ![20]⟩ : Shape).Idx → EReal)
    (Wl : (⟨2, ![1, 5]⟩ : Shape).Idx → EReal) (bl : (⟨1, ![1]⟩ : Shape).Idx → EReal) (r : Fin N) (r' : Fin N')
    (hx : ∀ k, x (ix2 r k) = x' (ix2 r' k)) (hh : ∀ (s : Fin 2) k, h (ix3 s r k) = h' (ix3 s r' k))
    (hc : ∀ (s : Fin 2) k, c (ix3 s r k) = c' (ix3 s r' k)) :
    rowOut x h c Wx0 Wh0 b0 Wx1 Wh1 b1 Wl bl r = rowOut x' h' c' Wx0 Wh0 b0 Wx1 Wh1 b1 Wl bl r' := by
  unfold rowOut
  rw [funext hx, funext (hh 0), funext (hh 1), funext (hc 0), funext (hc 1)]

/-! ## The body's block, row by row -/

theorem hz1 : (![0] : Fin 1 → Nat) = fun _ => 0 := funext fun a => by fin_cases a; rfl
theorem hz2 : (![0, 0] : Fin 2 → Nat) = fun _ => 0 := funext fun a => by fin_cases a <;> rfl

/-- A slab of a `[2, 4096, 5]` block loaded as `[1, 4096, 5]` reads the block at that slab. -/
theorem slab0_apply (x : Vec Ideal S2x4096x5 .f32) (p : Fin 4096) (k : Fin 5) :
    View.ld x r0_1 (ix3 (0 : Fin 1) p k) = x (ix3 (0 : Fin 2) p k) := by
  show x (r0_1.emb (ix3 (0 : Fin 1) p k)) = _
  refine congrArg x (funext fun a => Fin.ext ?_)
  rw [Rect.emb_apply]
  match a with
  | ⟨0, _⟩ => rfl
  | ⟨1, _⟩ => show 0 + 1 * p.val = p.val; omega
  | ⟨2, _⟩ => show 0 + 1 * k.val = k.val; omega

theorem slab1_apply (x : Vec Ideal S2x4096x5 .f32) (p : Fin 4096) (k : Fin 5) :
    View.ld x r0_2 (ix3 (0 : Fin 1) p k) = x (ix3 (1 : Fin 2) p k) := by
  show x (r0_2.emb (ix3 (0 : Fin 1) p k)) = _
  refine congrArg x (funext fun a => Fin.ext ?_)
  rw [Rect.emb_apply]
  match a with
  | ⟨0, _⟩ => rfl
  | ⟨1, _⟩ => show 0 + 1 * p.val = p.val; omega
  | ⟨2, _⟩ => show 0 + 1 * k.val = k.val; omega

/-- WHAT THE BODY LEAVES IN THE OUTPUT BLOCK at row `p`: the LSTM step of row `p` of the input blocks. -/
theorem out_block_apply (x0 : Vec Ideal S4096x21 .f32) (x1 x2 : Vec Ideal S2x4096x5 .f32) (x3 : Vec Ideal S20x21 .f32)
    (x4 : Vec Ideal S20x5 .f32) (x5 : Vec Ideal S20 .f32) (x6 x7 : Vec Ideal S20x5 .f32) (x8 : Vec Ideal S20 .f32)
    (x9 : Vec Ideal S1x5 .f32) (x10 : Vec Ideal S1 .f32) (p : Fin 4096) (q : Fin 1) :
    out0_11 (F := Ideal) x0 x1 x2 x3 x4 x5 x6 x7 x8 x9 x10 (ix2 p q) = rowOut x0 x1 x2 x3 x4 x5 x6 x7 x8 x9 x10 p := by
  unfold out0_11
  rw [View.canon_unit_zero hz2]
  refine (Body.payload_apply (View.ld x0 r0_0) (View.ld x1 r0_1) (View.ld x1 r0_2) (View.ld x2 r0_1) (View.ld x2 r0_2)
    (View.ld x3 r0_3) (View.ld x4 r0_4) (View.ld x5 r0_5) (View.ld x6 r0_4) (View.ld x7 r0_4) (View.ld x8 r0_5)
    (View.ld x9 r0_6) (View.ld x10 r0_7) p q).trans ?_
  rw [View.ld_unit_zero (S := S4096x21) hz2, View.ld_unit_zero (S := S20x21) hz2, View.ld_unit_zero (S := S20x5) hz2,
    View.ld_unit_zero (S := S20x5) hz2, View.ld_unit_zero (S := S20x5) hz2, View.ld_unit_zero (S := S20) hz1,
    View.ld_unit_zero (S := S20) hz1, View.ld_unit_zero (S := S1x5) hz2, View.ld_unit_zero (S := S1) hz1]
  have s10 : (fun k => View.ld x1 r0_1 (ix3 (0 : Fin 1) p k)) = fun k => x1 (ix3 (0 : Fin 2) p k) :=
    funext fun k => slab0_apply x1 p k
  have s11 : (fun k => View.ld x1 r0_2 (ix3 (0 : Fin 1) p k)) = fun k => x1 (ix3 (1 : Fin 2) p k) :=
    funext fun k => slab1_apply x1 p k
  have s20 : (fun k => View.ld x2 r0_1 (ix3 (0 : Fin 1) p k)) = fun k => x2 (ix3 (0 : Fin 2) p k) :=
    funext fun k => slab0_apply x2 p k
  have s21 : (fun k => View.ld x2 r0_2 (ix3 (0 : Fin 1) p k)) = fun k => x2 (ix3 (1 : Fin 2) p k) :=
    funext fun k => slab1_apply x2 p k
  rw [s10, s11, s20, s21]
  rfl

/-! ## Where each window's block lies -/

/-- The block indices over the 256 grid points, decided: the output and the input rows move with the point, the stacked
    states along their middle axis, and every other window stays at its one block. -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

variable (m : (ℓ : Loc nD τ sig) → Buf (Elt Ideal) ℓ) (ρ : Dev nD → PrngReg)

/-- WHAT POINT `t` WRITES BACK is block `t` of `G` of the arrays as the region finds them. -/
theorem flushed_eq (c : Dev nD) (t : Fin cfg0.N) :
    (dats m 0 c).flushed 11 t = ((cfg0.win 11).blk t).view.read (Elt Ideal) (G (V m c main_arg0) (V m c main_arg1) (V m c main_arg2) (V m c main_arg3) (V m c main_arg4) (V m c main_v0) (V m c main_arg7) (V m c main_arg8) (V m c main_v1) (V m c main_arg11) (V m c main_arg12)) := by
  rw [Value.flushed11]
  obtain ⟨e11a, e11b, e0a, e0b, e1a, e1b, e1c, e2a, e2b, e2c, e3a, e3b, e4a, e4b, e5, e6a, e6b, e7a, e7b, e8, e9a, e9b, e10⟩ :=
    idx_facts t
  funext y
  have h0 : (y 0).val < 4096 := (y 0).isLt
  have h1 : (y 1).val < 1 := (y 1).isLt
  have exinj : (cfg0.win 11).xinj (grid0.coords t) y = ix2 (⟨(y 0).val, h0⟩ : Fin 4096) (⟨(y 1).val, h1⟩ : Fin 1) :=
    funext fun a => match a with | ⟨0, _⟩ => rfl | ⟨1, _⟩ => rfl
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) exinj).trans ?_
  refine (out_block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) ⟨(y 0).val, h0⟩ ⟨(y 1).val, h1⟩).trans ?_
  -- the weights' and biases' one block is the whole array
  have w3 : iblk m c 3 t = V m c main_arg3 := funext fun z => congrArg (V m c main_arg3) (funext fun a => Fin.ext (by
    match a with
    | ⟨0, _⟩ => show win0_3.index t (0 : Fin 2) * 20 + 1 * (z 0).val = (z 0).val; omega
    | ⟨1, _⟩ => show win0_3.index t (1 : Fin 2) * 21 + 1 * (z 1).val = (z 1).val; omega))
  have w4 : iblk m c 4 t = V m c main_arg4 := funext fun z => congrArg (V m c main_arg4) (funext fun a => Fin.ext (by
    match a with
    | ⟨0, _⟩ => show win0_4.index t (0 : Fin 2) * 20 + 1 * (z 0).val = (z 0).val; omega
    | ⟨1, _⟩ => show win0_4.index t (1 : Fin 2) * 5 + 1 * (z 1).val = (z 1).val; omega))
  have w5 : iblk m c 5 t = V m c main_v0 := funext fun z => congrArg (V m c main_v0) (funext fun a => Fin.ext (by
    match a with
    | ⟨0, _⟩ => show win0_5.index t (0 : Fin 1) * 20 + 1 * (z 0).val = (z 0).val; omega))
  have w6 : iblk m c 6 t = V m c main_arg7 := funext fun z => congrArg (V m c main_arg7) (funext fun a => Fin.ext (by
    match a with
    | ⟨0, _⟩ => show win0_6.index t (0 : Fin 2) * 20 + 1 * (z 0).val = (z 0).val; omega
    | ⟨1, _⟩ => show win0_6.index t (1 : Fin 2) * 5 + 1 * (z 1).val = (z 1).val; omega))
  have w7 : iblk m c 7 t = V m c main_arg8 := funext fun z => congrArg (V m c main_arg8) (funext fun a => Fin.ext (by
    match a with
    | ⟨0, _⟩ => show win0_7.index t (0 : Fin 2) * 20 + 1 * (z 0).val = (z 0).val; omega
    | ⟨1, _⟩ => show win0_7.index t (1 : Fin 2) * 5 + 1 * (z 1).val = (z 1).val; omega))
  have w8 : iblk m c 8 t = V m c main_v1 := funext fun z => congrArg (V m c main_v1) (funext fun a => Fin.ext (by
    match a with
    | ⟨0, _⟩ => show win0_8.index t (0 : Fin 1) * 20 + 1 * (z 0).val = (z 0).val; omega))
  have w9 : iblk m c 9 t = V m c main_arg11 := funext fun z => congrArg (V m c main_arg11) (funext fun a => Fin.ext (by
    match a with
    | ⟨0, _⟩ => show win0_9.index t (0 : Fin 2) * 1 + 1 * (z 0).val = (z 0).val; omega
    | ⟨1, _⟩ => show win0_9.index t (1 : Fin 2) * 5 + 1 * (z 1).val = (z 1).val; omega))
  have w10 : iblk m c 10 t = V m c main_arg12 := funext fun z => congrArg (V m c main_arg12) (funext fun a => Fin.ext (by
    match a with
    | ⟨0, _⟩ => show win0_10.index t (0 : Fin 1) * 1 + 1 * (z 0).val = (z 0).val; omega))
  rw [w3, w4, w5, w6, w7, w8, w9, w10]
  -- the row of the block is the row `4096 t + p` of the arrays
  refine rowOut_congr (iblk m c 0 t) (iblk m c 1 t) (iblk m c 2 t) (V m c main_arg0) (V m c main_arg1) (V m c main_arg2)
    _ _ _ _ _ _ _ _ _ _ (fun k => ?_) (fun s k => ?_) (fun s k => ?_)
  · refine congrArg (V m c main_arg0) (funext fun a => Fin.ext ?_)
    match a with
    | ⟨0, _⟩ =>
      show win0_0.index t (0 : Fin 2) * 4096 + 1 * (y 0).val = win0_11.index t (0 : Fin 2) * 4096 + 1 * (y 0).val
      omega
    | ⟨1, _⟩ => show win0_0.index t (1 : Fin 2) * 21 + 1 * k.val = k.val; omega
  · refine congrArg (V m c main_arg1) (funext fun a => Fin.ext ?_)
    match a with
    | ⟨0, _⟩ => show win0_1.index t (0 : Fin 3) * 2 + 1 * s.val = s.val; omega
    | ⟨1, _⟩ =>
      show win0_1.index t (1 : Fin 3) * 4096 + 1 * (y 0).val = win0_11.index t (0 : Fin 2) * 4096 + 1 * (y 0).val
      omega
    | ⟨2, _⟩ => show win0_1.index t (2 : Fin 3) * 5 + 1 * k.val = k.val; omega
  · refine congrArg (V m c main_arg2) (funext fun a => Fin.ext ?_)
    match a with
    | ⟨0, _⟩ => show win0_2.index t (0 : Fin 3) * 2 + 1 * s.val = s.val; omega
    | ⟨1, _⟩ =>
      show win0_2.index t (1 : Fin 3) * 4096 + 1 * (y 0).val = win0_11.index t (0 : Fin 2) * 4096 + 1 * (y 0).val
      omega
    | ⟨2, _⟩ => show win0_2.index t (2 : Fin 3) * 5 + 1 * k.val = k.val; omega

/-- An index of the result array is in point `t`'s block iff each coordinate is in the block's range on its axis. -/
theorem mem_blk (t : Fin cfg0.N) (i : S1048576x1.Idx) :
    i ∈ ((cfg0.win 11).blk t).view.set ↔ ∀ a : Fin 2, win0_11.index t a * S4096x1.size a ≤ (i a).val
      ∧ (i a).val < win0_11.index t a * S4096x1.size a + S4096x1.size a := by
  show i ∈ ((View.whole main_v2).slice (win0_11.rect t)).set ↔ _
  rw [View.set_slice_whole, Rect.mem_set_unit]
  exact Iff.rfl

/-- Every row of the result is in the block of the point `row / 4096`. -/
theorem cover (i : S1048576x1.Idx) :
    ∃ t : Fin cfg0.N, (cfg0.win 11).flush t = true ∧ i ∈ ((cfg0.win 11).blk t).view.set := by
  have hi0 : (i 0).val < 1048576 := (i 0).isLt
  have hi1 : (i 1).val < 1 := (i 1).isLt
  have ht : (i 0).val / 4096 < cfg0.N := by
    show (i 0).val / 4096 < grid0.N
    rw [N_0]; omega
  have e := idx_facts ⟨(i 0).val / 4096, ht⟩
  have e0 : win0_11.index ⟨(i 0).val / 4096, ht⟩ (0 : Fin 2) = (i 0).val / 4096 := e.1
  have e1 : win0_11.index ⟨(i 0).val / 4096, ht⟩ (1 : Fin 2) = 0 := e.2.1
  refine ⟨⟨(i 0).val / 4096, ht⟩, flush0_11 _, ?_⟩
  rw [mem_blk]
  intro a
  match a with
  | ⟨0, _⟩ =>
    show win0_11.index ⟨(i 0).val / 4096, ht⟩ (0 : Fin 2) * 4096 ≤ (i 0).val
      ∧ (i 0).val < win0_11.index ⟨(i 0).val / 4096, ht⟩ (0 : Fin 2) * 4096 + 4096
    rw [e0]; omega
  | ⟨1, _⟩ =>
    show win0_11.index ⟨(i 0).val / 4096, ht⟩ (1 : Fin 2) * 1 ≤ (i 1).val
      ∧ (i 1).val < win0_11.index ⟨(i 0).val / 4096, ht⟩ (1 : Fin 2) * 1 + 1
    rw [e1]; omega

/-! ## The arrays the host wrote before the region -/

/-- The first layer's bias as the region finds it: the sum of its two argument vectors. -/
theorem V_bias0 (c : Dev nD) : (V m c main_v0 : S20.Idx → EReal)
    = addf (F := Ideal) (φ := .f32) (m ((c : Thread nD τ).loc main_arg5)) (m ((c : Thread nD τ).loc main_arg6)) := by
  dsimp only [V, hostOps0]; after_results

/-- The second layer's bias as the region finds it. -/
theorem V_bias1 (c : Dev nD) : (V m c main_v1 : S20.Idx → EReal)
    = addf (F := Ideal) (φ := .f32) (m ((c : Thread nD τ).loc main_arg9)) (m ((c : Thread nD τ).loc main_arg10)) := by
  dsimp only [V, hostOps0]; after_results

/-! ## The array after the run, and the run -/

/-- THE RESULT ARRAY after the run is the LSTM step of the argument arrays, row by row. -/
theorem final (c : Dev nD) : (dats m 0 c).arrAt 11 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (addf (F := Ideal) (φ := .f32) (m ((c : Thread nD τ).loc main_arg5)) (m ((c : Thread nD τ).loc main_arg6))) (m ((c : Thread nD τ).loc main_arg7)) (m ((c : Thread nD τ).loc main_arg8)) (addf (F := Ideal) (φ := .f32) (m ((c : Thread nD τ).loc main_arg9)) (m ((c : Thread nD τ).loc main_arg10))) (m ((c : Thread nD τ).loc main_arg11)) (m ((c : Thread nD τ).loc main_arg12)) := by
  rw [(dats m 0 c).arrAt_eq_of_cover 11 (G (V m c main_arg0) (V m c main_arg1) (V m c main_arg2) (V m c main_arg3) (V m c main_arg4) (V m c main_v0) (V m c main_arg7) (V m c main_arg8) (V m c main_v1) (V m c main_arg11) (V m c main_arg12)) (fun t _ => flushed_eq m c t) cover]
  rw [V_main_arg0, V_main_arg1, V_main_arg2, V_main_arg3, V_main_arg4, V_main_arg7, V_main_arg8, V_main_arg11,
    V_main_arg12, V_bias0, V_bias1]

/-- The kernel's run with its result array named `G` of the arguments, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3)) (m ((c : Thread nD τ).loc main_arg4)) (addf (F := Ideal) (φ := .f32) (m ((c : Thread nD τ).loc main_arg5)) (m ((c : Thread nD τ).loc main_arg6))) (m ((c : Thread nD τ).loc main_arg7)) (m ((c : Thread nD τ).loc main_arg8)) (addf (F := Ideal) (φ := .f32) (m ((c : Thread nD τ).loc main_arg9)) (m ((c : Thread nD τ).loc main_arg10))) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.LstmStep.Blocks

end
-- ==== Proof.Ref.lean ====
/-
  The reference program, stage by stage, is the LSTM step of Spec.lean row by row.

  Each lemma reads one stage of the host program at an index built from coordinates: the stacked states sliced and
  reshaped to a layer's `[N, 5]` matrix are that layer's rows; a transposed weight read at `(k, j)` is the weight at
  `(j, k)`; a product of a row block with a transposed weight is `∑ k, x (r, k) * W (j, k)`; the two bias vectors added
  and broadcast over the rows give `b (j) + b' (j)` in column `j`. The twenty columns of a cell's pre-activations cut
  into four slices of five are the gates; the pointwise stages between the slices and the cell's new hidden state are,
  term for term, `hnew`. Chaining the two cells and the read-out gives `G` of the arguments.
-/
import proofs.«148989_j35751307772400_1_alg».proof.Proof.Gen.ReferenceIdeal.Read
import proofs.«148989_j35751307772400_1_alg».proof.Proof.Spec

noncomputable section

namespace Cert.LstmStep.Ref

open Cert.ReferenceIdeal Cert.ReferenceIdeal.Read Idealize.ShloMosaic Idealize.ShloMosaic.ValueIdx Cert.LstmStep

variable (x0 : (⟨S1048576x21, .f32⟩ : BufTy).Contents (Elt Ideal)) (x1 x2 : (⟨S2x1048576x5, .f32⟩ : BufTy).Contents (Elt Ideal))
  (x3 : (⟨S20x21, .f32⟩ : BufTy).Contents (Elt Ideal)) (x4 : (⟨S20x5, .f32⟩ : BufTy).Contents (Elt Ideal))
  (x5 x6 : (⟨S20, .f32⟩ : BufTy).Contents (Elt Ideal)) (x7 x8 : (⟨S20x5, .f32⟩ : BufTy).Contents (Elt Ideal))
  (x9 x10 : (⟨S20, .f32⟩ : BufTy).Contents (Elt Ideal)) (x11 : (⟨S1x5, .f32⟩ : BufTy).Contents (Elt Ideal))
  (x12 : (⟨S1, .f32⟩ : BufTy).Contents (Elt Ideal))

/-! ## Layout stages at coordinates -/

/-- Row `r` of the flattened position `r * 5 + k` of an `[N, 5]` matrix, and its column. -/
theorem row_col (r : Fin 1048576) (k : Fin 5) :
    (r.val * 5 + k.val) / 5 % 1048576 = r.val ∧ (r.val * 5 + k.val) % 5 = k.val := by
  have := r.isLt; have := k.isLt; omega

/-- Layer 0's previous hidden state: slab 0 of the stacked hidden states. -/
theorem hid0_apply (r : Fin 1048576) (k : Fin 5) : val_main_v1 (F := Ideal) x1 (ix2 r k) = x1 (ix3 (0 : Fin 2) r k) := by
  rw [val_main_v1_apply, val_main_v0_apply]
  refine congrArg x1 (funext fun a => Fin.ext ?_)
  match a with
  | ⟨0, _⟩ => rfl
  | ⟨1, _⟩ => exact (row_col r k).1
  | ⟨2, _⟩ => exact (row_col r k).2

/-- Layer 0's previous cell state: slab 0 of the stacked cell states. -/
theorem cell0_apply (r : Fin 1048576) (k : Fin 5) : val_main_v3 (F := Ideal) x2 (ix2 r k) = x2 (ix3 (0 : Fin 2) r k) := by
  rw [val_main_v3_apply, val_main_v2_apply]
  refine congrArg x2 (funext fun a => Fin.ext ?_)
  match a with
  | ⟨0, _⟩ => rfl
  | ⟨1, _⟩ => exact (row_col r k).1
  | ⟨2, _⟩ => exact (row_col r k).2

/-- Layer 1's previous hidden state: slab 1. -/
theorem hid1_apply (r : Fin 1048576) (k : Fin 5) : val_main_v42 (F := Ideal) x1 (ix2 r k) = x1 (ix3 (1 : Fin 2) r k) := by
  rw [val_main_v42_apply, val_main_v41_apply]
  refine congrArg x1 (funext fun a => Fin.ext ?_)
  match a with
  | ⟨0, _⟩ => rfl
  | ⟨1, _⟩ => exact (row_col r k).1
  | ⟨2, _⟩ => exact (row_col r k).2

/-- Layer 1's previous cell state: slab 1. -/
theorem cell1_apply (r : Fin 1048576) (k : Fin 5) : val_main_v44 (F := Ideal) x2 (ix2 r k) = x2 (ix3 (1 : Fin 2) r k) := by
  rw [val_main_v44_apply, val_main_v43_apply]
  refine congrArg x2 (funext fun a => Fin.ext ?_)
  match a with
  | ⟨0, _⟩ => rfl
  | ⟨1, _⟩ => exact (row_col r k).1
  | ⟨2, _⟩ => exact (row_col r k).2

/-- The transposed weights read at `(k, j)` are the weights at `(j, k)`. -/
theorem wT4_apply (k : Fin 21) (j : Fin 20) : val_main_v4 (F := Ideal) x3 (ix2 k j) = x3 (ix2 j k) := by
  rw [val_main_v4_apply]
  exact congrArg x3 (funext fun a => match a with | ⟨0, _⟩ => rfl | ⟨1, _⟩ => rfl)

theorem wT6_apply (k : Fin 5) (j : Fin 20) : val_main_v6 (F := Ideal) x4 (ix2 k j) = x4 (ix2 j k) := by
  rw [val_main_v6_apply]
  exact congrArg x4 (funext fun a => match a with | ⟨0, _⟩ => rfl | ⟨1, _⟩ => rfl)

theorem wT45_apply (k : Fin 5) (j : Fin 20) : val_main_v45 (F := Ideal) x7 (ix2 k j) = x7 (ix2 j k) := by
  rw [val_main_v45_apply]
  exact congrArg x7 (funext fun a => match a with | ⟨0, _⟩ => rfl | ⟨1, _⟩ => rfl)

theorem wT47_apply (k : Fin 5) (j : Fin 20) : val_main_v47 (F := Ideal) x8 (ix2 k j) = x8 (ix2 j k) := by
  rw [val_main_v47_apply]
  exact congrArg x8 (funext fun a => match a with | ⟨0, _⟩ => rfl | ⟨1, _⟩ => rfl)

theorem wT82_apply (k : Fin 5) (q : Fin 1) : val_main_v82 (F := Ideal) x11 (ix2 k q) = x11 (ix2 q k) := by
  rw [val_main_v82_apply]
  exact congrArg x11 (funext fun a => match a with | ⟨0, _⟩ => rfl | ⟨1, _⟩ => rfl)

/-- The summed biases, broadcast over the rows: column `j` holds `b (j) + b' (j)` in every row. -/
theorem bias0_apply (r : Fin 1048576) (j : Fin 20) :
    val_main_v11 (F := Ideal) x5 x6 (ix2 r j) = x5 (ix1 j) + x6 (ix1 j) := by
  rw [val_main_v11_apply, val_main_v10_apply, val_main_v9_apply]
  have e : idx_main_v10 (idx_main_v11 (ix2 r j)) = ix1 j := funext fun a => match a with | ⟨0, _⟩ => rfl
  rw [e]
  rfl

theorem bias1_apply (r : Fin 1048576) (j : Fin 20) :
    val_main_v52 (F := Ideal) x9 x10 (ix2 r j) = x9 (ix1 j) + x10 (ix1 j) := by
  rw [val_main_v52_apply, val_main_v51_apply, val_main_v50_apply]
  have e : idx_main_v51 (idx_main_v52 (ix2 r j)) = ix1 j := funext fun a => match a with | ⟨0, _⟩ => rfl
  rw [e]
  rfl

/-- The read-out bias, broadcast over the rows. -/
theorem biasL_apply (r : Fin 1048576) (q : Fin 1) : val_main_v85 (F := Ideal) x12 (ix2 r q) = x12 (ix1 (0 : Fin 1)) := by
  rw [val_main_v85_apply, val_main_v84_apply]
  exact congrArg x12 (funext fun a => match a with | ⟨0, _⟩ => rfl)

/-! ## The products at coordinates -/

/-- Layer 0, input part: `∑ k, x (r, k) * W_ih0 (j, k)`. -/
theorem dotX0_apply (r : Fin 1048576) (j : Fin 20) :
    val_main_v5 (F := Ideal) x0 x3 (ix2 r j) = ∑ k : Fin 21, x0 (ix2 r k) * x3 (ix2 j k) := by
  rw [val_main_v5_apply]
  refine Finset.sum_congr rfl fun k _ => ?_
  have el : lidx_main_v5 (ix2 r j) k = ix2 r k := funext fun a => match a with | ⟨0, _⟩ => rfl | ⟨1, _⟩ => rfl
  have er : ridx_main_v5 (ix2 r j) k = ix2 k j := funext fun a => match a with | ⟨0, _⟩ => rfl | ⟨1, _⟩ => rfl
  rw [el, er, wT4_apply]

/-- Layer 0, recurrent part: `∑ k, h₀ (r, k) * W_hh0 (j, k)`. -/
theorem dotH0_apply (r : Fin 1048576) (j : Fin 20) :
    val_main_v7 (F := Ideal) x1 x4 (ix2 r j) = ∑ k : Fin 5, x1 (ix3 (0 : Fin 2) r k) * x4 (ix2 j k) := by
  rw [val_main_v7_apply]
  refine Finset.sum_congr rfl fun k _ => ?_
  have el : lidx_main_v7 (ix2 r j) k = ix2 r k := funext fun a => match a with | ⟨0, _⟩ => rfl | ⟨1, _⟩ => rfl
  have er : ridx_main_v7 (ix2 r j) k = ix2 k j := funext fun a => match a with | ⟨0, _⟩ => rfl | ⟨1, _⟩ => rfl
  rw [el, er, hid0_apply, wT6_apply]

/-- The first cell's twenty pre-activations at row `r`. -/
theorem gates0_apply (r : Fin 1048576) (j : Fin 20) :
    val_main_v12 (F := Ideal) x0 x1 x3 x4 x5 x6 (ix2 r j)
      = pre (fun k => x0 (ix2 r k)) (fun k => x1 (ix3 (0 : Fin 2) r k)) (fun j k => x3 (ix2 j k)) (fun j k => x4 (ix2 j k))
          (fun j => x5 (ix1 j) + x6 (ix1 j)) j := by
  rw [val_main_v12_apply, val_main_v8_apply, dotX0_apply, dotH0_apply, bias0_apply]
  rfl

/-- The first cell's new hidden state at `(r, k)`: `hnew` of its pre-activations and layer 0's old cell row. -/
theorem hnew0_apply (r : Fin 1048576) (k : Fin 5) :
    val_main_v40 (F := Ideal) x0 x1 x2 x3 x4 x5 x6 (ix2 r k)
      = hnew (fun j => val_main_v12 (F := Ideal) x0 x1 x3 x4 x5 x6 (ix2 r j)) (fun k => x2 (ix3 (0 : Fin 2) r k)) k := by
  simp only [val_main_v40_apply, val_main_v39_apply, val_main_v38_apply, val_main_v37_apply, val_main_v36_apply, val_main_v35_apply, val_main_v34_apply, val_main_cst_4_apply, val_main_v33_apply, val_main_v32_apply, val_main_cst_3_apply, val_main_v31_apply, val_main_v30_apply, val_main_v16_apply, val_main_v29_apply, val_main_v15_apply, val_main_v28_apply, val_main_v27_apply, val_main_cst_2_apply, val_main_v26_apply, val_main_v25_apply, val_main_cst_1_apply, val_main_v24_apply, val_main_v23_apply, val_main_v14_apply, val_main_v22_apply, val_main_v21_apply, val_main_cst_0_apply, val_main_v20_apply, val_main_v19_apply, val_main_cst_apply, val_main_v18_apply, val_main_v17_apply, val_main_v13_apply]
  rw [cell0_apply]
  have eI : idx_main_v13 (ix2 r k) = ix2 r (colI k) := funext fun a => match a with | ⟨0, _⟩ => rfl | ⟨1, _⟩ => rfl
  have eF : idx_main_v14 (ix2 r k) = ix2 r (colF k) := funext fun a => match a with | ⟨0, _⟩ => rfl | ⟨1, _⟩ => rfl
  have eG : idx_main_v15 (ix2 r k) = ix2 r (colG k) := funext fun a => match a with | ⟨0, _⟩ => rfl | ⟨1, _⟩ => rfl
  have eO : idx_main_v16 (ix2 r k) = ix2 r (colO k) := funext fun a => match a with | ⟨0, _⟩ => rfl | ⟨1, _⟩ => rfl
  rw [eI, eF, eG, eO]
  rfl

/-- Layer 1, input part: the first cell's new hidden row against `W_ih1`. -/
theorem dotX1_apply (r : Fin 1048576) (j : Fin 20) :
    val_main_v46 (F := Ideal) x0 x1 x2 x3 x4 x5 x6 x7 (ix2 r j)
      = ∑ k : Fin 5, val_main_v40 (F := Ideal) x0 x1 x2 x3 x4 x5 x6 (ix2 r k) * x7 (ix2 j k) := by
  rw [val_main_v46_apply]
  refine Finset.sum_congr rfl fun k _ => ?_
  have el : lidx_main_v46 (ix2 r j) k = ix2 r k := funext fun a => match a with | ⟨0, _⟩ => rfl | ⟨1, _⟩ => rfl
  have er : ridx_main_v46 (ix2 r j) k = ix2 k j := funext fun a => match a with | ⟨0, _⟩ => rfl | ⟨1, _⟩ => rfl
  rw [el, er, wT45_apply]

/-- Layer 1, recurrent part. -/
theorem dotH1_apply (r : Fin 1048576) (j : Fin 20) :
    val_main_v48 (F := Ideal) x1 x8 (ix2 r j) = ∑ k : Fin 5, x1 (ix3 (1 : Fin 2) r k) * x8 (ix2 j k) := by
  rw [val_main_v48_apply]
  refine Finset.sum_congr rfl fun k _ => ?_
  have el : lidx_main_v48 (ix2 r j) k = ix2 r k := funext fun a => match a with | ⟨0, _⟩ => rfl | ⟨1, _⟩ => rfl
  have er : ridx_main_v48 (ix2 r j) k = ix2 k j := funext fun a => match a with | ⟨0, _⟩ => rfl | ⟨1, _⟩ => rfl
  rw [el, er, hid1_apply, wT47_apply]

/-- The second cell's twenty pre-activations at row `r`. -/
theorem gates1_apply (r : Fin 1048576) (j : Fin 20) :
    val_main_v53 (F := Ideal) x0 x1 x2 x3 x4 x5 x6 x7 x8 x9 x10 (ix2 r j)
      = pre (fun k => val_main_v40 (F := Ideal) x0 x1 x2 x3 x4 x5 x6 (ix2 r k)) (fun k => x1 (ix3 (1 : Fin 2) r k))
          (fun j k => x7 (ix2 j k)) (fun j k => x8 (ix2 j k)) (fun j => x9 (ix1 j) + x10 (ix1 j)) j := by
  rw [val_main_v53_apply, val_main_v49_apply, dotX1_apply, dotH1_apply, bias1_apply]
  rfl

/-- The second cell's new hidden state at `(r, k)`. -/
theorem hnew1_apply (r : Fin 1048576) (k : Fin 5) :
    val_main_v81 (F := Ideal) x0 x1 x2 x3 x4 x5 x6 x7 x8 x9 x10 (ix2 r k)
      = hnew (fun j => val_main_v53 (F := Ideal) x0 x1 x2 x3 x4 x5 x6 x7 x8 x9 x10 (ix2 r j)) (fun k => x2 (ix3 (1 : Fin 2) r k)) k := by
  simp only [val_main_v81_apply, val_main_v80_apply, val_main_v79_apply, val_main_v78_apply, val_main_v77_apply, val_main_v76_apply, val_main_v75_apply, val_main_cst_10_apply, val_main_v74_apply, val_main_v73_apply, val_main_cst_9_apply, val_main_v72_apply, val_main_v71_apply, val_main_v57_apply, val_main_v70_apply, val_main_v56_apply, val_main_v69_apply, val_main_v68_apply, val_main_cst_8_apply, val_main_v67_apply, val_main_v66_apply, val_main_cst_7_apply, val_main_v65_apply, val_main_v64_apply, val_main_v55_apply, val_main_v63_apply, val_main_v62_apply, val_main_cst_6_apply, val_main_v61_apply, val_main_v60_apply, val_main_cst_5_apply, val_main_v59_apply, val_main_v58_apply, val_main_v54_apply]
  rw [cell1_apply]
  have eI : idx_main_v54 (ix2 r k) = ix2 r (colI k) := funext fun a => match a with | ⟨0, _⟩ => rfl | ⟨1, _⟩ => rfl
  have eF : idx_main_v55 (ix2 r k) = ix2 r (colF k) := funext fun a => match a with | ⟨0, _⟩ => rfl | ⟨1, _⟩ => rfl
  have eG : idx_main_v56 (ix2 r k) = ix2 r (colG k) := funext fun a => match a with | ⟨0, _⟩ => rfl | ⟨1, _⟩ => rfl
  have eO : idx_main_v57 (ix2 r k) = ix2 r (colO k) := funext fun a => match a with | ⟨0, _⟩ => rfl | ⟨1, _⟩ => rfl
  rw [eI, eF, eG, eO]
  rfl

/-- The read-out product: the second cell's new hidden row against `W_lin`. -/
theorem dotL_apply (r : Fin 1048576) (q : Fin 1) :
    val_main_v83 (F := Ideal) x0 x1 x2 x3 x4 x5 x6 x7 x8 x9 x10 x11 (ix2 r q)
      = ∑ k : Fin 5, val_main_v81 (F := Ideal) x0 x1 x2 x3 x4 x5 x6 x7 x8 x9 x10 (ix2 r k) * x11 (ix2 (0 : Fin 1) k) := by
  rw [val_main_v83_apply]
  refine Finset.sum_congr rfl fun k _ => ?_
  have el : lidx_main_v83 (ix2 r q) k = ix2 r k := funext fun a => match a with | ⟨0, _⟩ => rfl | ⟨1, _⟩ => rfl
  have er : ridx_main_v83 (ix2 r q) k = ix2 k q := funext fun a => match a with | ⟨0, _⟩ => rfl | ⟨1, _⟩ => rfl
  have hq : q = 0 := Subsingleton.elim _ _
  rw [el, er, wT82_apply, hq]

/-! ## The whole result -/

/-- THE REFERENCE IS `G`: its result array is the LSTM step of the arguments, the two layers' bias vectors summed. -/
theorem result_eq :
    val_main_v87 (F := Ideal) x0 x1 x2 x3 x4 x5 x6 x7 x8 x9 x10 x11 x12
      = G x0 x1 x2 x3 x4 (addf (F := Ideal) (φ := .f32) x5 x6) x7 x8 (addf (F := Ideal) (φ := .f32) x9 x10) x11 x12 := by
  funext i
  obtain ⟨r, q, rfl⟩ : ∃ (r : Fin 1048576) (q : Fin 1), i = ix2 r q := ⟨i 0, i 1, eq_ix2 i⟩
  rw [val_main_v87_apply, val_main_v86_apply, dotL_apply, biasL_apply]
  simp only [hnew1_apply, gates1_apply, hnew0_apply, gates0_apply]
  rfl

end Cert.LstmStep.Ref

end
-- ==== Proof.lean ====
/-
  A two-layer LSTM step with a linear read-out, tiled over the batch, against the same step written with whole-array
  operations.

  Both programs take a batch of 1048576 rows `x`, the two layers' previous hidden and cell states stacked `[2, N, 5]`,
  the layers' weights and bias pairs, and the read-out's weights and bias, and return `tanh (h₂ · W_linᵀ + b_lin)` where
  each layer's cell computes `z = x · W_ihᵀ + h · W_hhᵀ + (b_ih + b_hh)`, splits `z` into the input, forget, candidate
  and output gates, and forms `c' = σ(z_f) · c + σ(z_i) · tanh(z_g)`, `h' = σ(z_o) · tanh(c')` with
  `σ z = 1 / (1 + e^(-z))`.

  On the extended reals the two programs are the same function of the arguments, with no appeal to finiteness: the
  kernel's narrowing of the matrix products' operands is the identity, a matrix-unit product into a zero accumulator and
  the host's product are the same sum, and the kernel's `0 - z` is the host's `-z` on every extended real. The function
  is `Cert.LstmStep.G` (Proof/Spec.lean). The reference's run ends at `G` of its arguments (Proof/Ref.lean over the
  generated run and its stages); the kernel's 256 grid points each write 4096 rows of `G` and together cover the array
  (Proof/Body.lean for a block's row, Proof/Blocks.lean for the blocks and the cover).

  The frames of the two kernel programs are the generated ones; the reference's frame is its generated run with the
  result forgotten. No operation was rewritten when the kernel was idealized, so that claim is `True`.
-/
import proofs.«148989_j35751307772400_1_alg».proof.Defs
import proofs.«148989_j35751307772400_1_alg».proof.Proof.Gen.Kernel
import proofs.«148989_j35751307772400_1_alg».proof.Proof.Gen.Kernel.Skeleton
import proofs.«148989_j35751307772400_1_alg».proof.Proof.Gen.Kernel.Launch
import proofs.«148989_j35751307772400_1_alg».proof.Proof.Gen.Kernel.Points
import proofs.«148989_j35751307772400_1_alg».proof.Proof.Gen.Kernel.Frame
import proofs.«148989_j35751307772400_1_alg».proof.Proof.Gen.KernelIdeal
import proofs.«148989_j35751307772400_1_alg».proof.Proof.Gen.KernelIdeal.Skeleton
import proofs.«148989_j35751307772400_1_alg».proof.Proof.Gen.KernelIdeal.Launch
import proofs.«148989_j35751307772400_1_alg».proof.Proof.Gen.KernelIdeal.Points
import proofs.«148989_j35751307772400_1_alg».proof.Proof.Gen.KernelIdeal.Frame
import proofs.«148989_j35751307772400_1_alg».proof.Proof.Gen.ReferenceIdeal
import proofs.«148989_j35751307772400_1_alg».proof.Proof.Gen.Pre_finite_inputs
import proofs.«148989_j35751307772400_1_alg».proof.Proof.Gen.KernelIdeal.Value
import proofs.«148989_j35751307772400_1_alg».proof.Proof.Gen.ReferenceIdeal.Run
import proofs.«148989_j35751307772400_1_alg».proof.Proof.Gen.ReferenceIdeal.Read
import proofs.«148989_j35751307772400_1_alg».proof.Proof.Blocks
import proofs.«148989_j35751307772400_1_alg».proof.Proof.Ref
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's are both the LSTM step
    `G` of those arguments. -/
theorem algebraic : Cert.algebraic_KernelIdeal_ReferenceIdeal := by
  intro m ρ m' ρ' _ hagree
  refine ⟨_, Cert.LstmStep.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v87_eq, Cert.LstmStep.Ref.result_eq, a0, a1, a2, a3, a4, a5, a6, a7, a8, a9, a10,
    a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
